-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x196 : Shape := ⟨2, ![4096, 196]⟩
abbrev S196 : Shape := ⟨1, ![196]⟩
abbrev S196x10 : Shape := ⟨2, ![196, 10]⟩
abbrev S10 : Shape := ⟨1, ![10]⟩
abbrev S10x1024 : Shape := ⟨2, ![10, 1024]⟩
abbrev S1024 : Shape := ⟨1, ![1024]⟩
abbrev S1024x32 : Shape := ⟨2, ![1024, 32]⟩
abbrev S32 : Shape := ⟨1, ![32]⟩
abbrev S32x1024 : Shape := ⟨2, ![32, 1024]⟩
abbrev S1024x2048 : Shape := ⟨2, ![1024, 2048]⟩
abbrev S2048 : Shape := ⟨1, ![2048]⟩
abbrev S2048x4096 : Shape := ⟨2, ![2048, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x196 : S_.BroadcastsInDim S4096x196 (![] : Fin 0 → Fin S4096x196.rank)
  reducesTo_S4096x196_S_d0_1 : S4096x196.ReducesTo [0, 1] S_
  bcast_S_S196 : S_.BroadcastsInDim S196 (![] : Fin 0 → Fin S196.rank)
  reducesTo_S196_S_d0 : S196.ReducesTo [0] S_
  bcast_S_S196x10 : S_.BroadcastsInDim S196x10 (![] : Fin 0 → Fin S196x10.rank)
  reducesTo_S196x10_S_d0_1 : S196x10.ReducesTo [0, 1] S_
  bcast_S_S10 : S_.BroadcastsInDim S10 (![] : Fin 0 → Fin S10.rank)
  reducesTo_S10_S_d0 : S10.ReducesTo [0] S_
  bcast_S_S10x1024 : S_.BroadcastsInDim S10x1024 (![] : Fin 0 → Fin S10x1024.rank)
  reducesTo_S10x1024_S_d0_1 : S10x1024.ReducesTo [0, 1] S_
  bcast_S_S1024 : S_.BroadcastsInDim S1024 (![] : Fin 0 → Fin S1024.rank)
  reducesTo_S1024_S_d0 : S1024.ReducesTo [0] S_
  bcast_S_S1024x32 : S_.BroadcastsInDim S1024x32 (![] : Fin 0 → Fin S1024x32.rank)
  reducesTo_S1024x32_S_d0_1 : S1024x32.ReducesTo [0, 1] S_
  bcast_S_S32 : S_.BroadcastsInDim S32 (![] : Fin 0 → Fin S32.rank)
  reducesTo_S32_S_d0 : S32.ReducesTo [0] S_
  bcast_S_S32x1024 : S_.BroadcastsInDim S32x1024 (![] : Fin 0 → Fin S32x1024.rank)
  reducesTo_S32x1024_S_d0_1 : S32x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x4096 : S_.BroadcastsInDim S2048x4096 (![] : Fin 0 → Fin S2048x4096.rank)
  reducesTo_S2048x4096_S_d0_1 : S2048x4096.ReducesTo [0, 1] S_
  bcast_S_S4096 : S_.BroadcastsInDim S4096 (![] : Fin 0 → Fin S4096.rank)
  reducesTo_S4096_S_d0 : S4096.ReducesTo [0] S_

variable [Facts]

def fn_part4 {F : FTy → Type} [FloatOps F] (main_arg14 : FVec F S2048 .f32) (main_arg15 : FVec F S2048x4096 .f32) (main_arg16 : FVec F S4096 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048x4096 .f32 := Host.absf main_arg15
  let main_cst_28 : FVec F S_ .f32 := constant S_ .f32 0x7F800000#32
  let main_v75 : FVec F S2048x4096 .f32 := broadcastInDim S2048x4096 ![] bcast_S_S2048x4096 main_cst_28
  let main_v76 : IVec S2048x4096 1 := cmpf .olt main_v74 main_v75
  let main_c_29 : IVec S_ 1 := constantI S_ 1 1#1
  let main_v77 : IVec S_ 1 := (fun x v => Host.reduce IntOp.andi x v reducesTo_S2048x4096_S_d0_1 h_S_) main_v76 main_c_29
  let main_v78 : IVec S_ 1 := andi main_v73 main_v77
  let main_v79 : FVec F S4096 .f32 := Host.absf main_arg16
  let main_cst_30 : FVec F S_ .f32 := constant S_ .f32 0x7F800000#32
  let main_v80 : FVec F S4096 .f32 := broadcastInDim S4096 ![] bcast_S_S4096 main_cst_30
  let main_v81 : IVec S4096 1 := cmpf .olt main_v79 main_v80
  let main_c_31 : IVec S_ 1 := constantI S_ 1 1#1
  let main_v82 : IVec S_ 1 := (fun x v => Host.reduce IntOp.andi x v reducesTo_S4096_S_d0 h_S_) main_v81 main_c_31
  let main_v83 : IVec S_ 1 := andi main_v78 main_v82
  main_v83

def fn_part3 {F : FTy → Type} [FloatOps F] (main_arg11 : FVec F S32x1024 .f32) (main_arg12 : FVec F S1024 .f32) (main_arg13 : FVec F S1024x2048 .f32) (main_arg14 : FVec F S2048 .f32) (main_arg15 : FVec F S2048x4096 .f32) (main_arg16 : FVec F S4096 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x1024 .f32 := Host.absf main_arg11
  let main_cst_20 : FVec F S_ .f32 := constant S_ .f32 0x7F800000#32
  let main_v55 : FVec F S32x1024 .f32 := broadcastInDim S32x1024 ![] bcast_S_S32x1024 main_cst_20
  let main_v56 : IVec S32x1024 1 := cmpf .olt main_v54 main_v55
  let main_c_21 : IVec S_ 1 := constantI S_ 1 1#1
  let main_v57 : IVec S_ 1 := (fun x v => Host.reduce IntOp.andi x v reducesTo_S32x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x2048 .f32 := Host.absf main_arg13
  let main_cst_24 : FVec F S_ .f32 := constant S_ .f32 0x7F800000#32
  let main_v65 : FVec F S1024x2048 .f32 := broadcastInDim S1024x2048 ![] bcast_S_S1024x2048 main_cst_24
  let main_v66 : IVec S1024x2048 1 := cmpf .olt main_v64 main_v65
  let main_c_25 : IVec S_ 1 := constantI S_ 1 1#1
  let main_v67 : IVec S_ 1 := (fun x v => Host.reduce IntOp.andi x v reducesTo_S1024x2048_S_d0_1 h_S_) main_v66 main_c_25
  fn_part4 (F := F) main_arg14 main_arg15 main_arg16 main_v63 main_v67

def fn_part2 {F : FTy → Type} [FloatOps F] (main_arg7 : FVec F S10x1024 .f32) (main_arg8 : FVec F S1024 .f32) (main_arg9 : FVec F S1024x32 .f32) (main_arg10 : FVec F S32 .f32) (main_arg11 : FVec F S32x1024 .f32) (main_arg12 : FVec F S1024 .f32) (main_arg13 : FVec F S1024x2048 .f32) (main_arg14 : FVec F S2048 .f32) (main_arg15 : FVec F S2048x4096 .f32) (main_arg16 : FVec F S4096 .f32) (main_v33 : IVec S_ 1) : IVec S_ 1 :=
  let main_v34 : FVec F S10x1024 .f32 := Host.absf main_arg7
  let main_cst_12 : FVec F S_ .f32 := constant S_ .f32 0x7F800000#32
  let main_v35 : FVec F S10x1024 .f32 := broadcastInDim S10x1024 ![] bcast_S_S10x1024 main_cst_12
  let main_v36 : IVec S10x1024 1 := cmpf .olt main_v34 main_v35
  let main_c_13 : IVec S_ 1 := constantI S_ 1 1#1
  let main_v37 : IVec S_ 1 := (fun x v => Host.reduce IntOp.andi x v reducesTo_S10x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x32 .f32 := Host.absf main_arg9
  let main_cst_16 : FVec F S_ .f32 := constant S_ .f32 0x7F800000#32
  let main_v45 : FVec F S1024x32 .f32 := broadcastInDim S1024x32 ![] bcast_S_S1024x32 main_cst_16
  let main_v46 : IVec S1024x32 1 := cmpf .olt main_v44 main_v45
  let main_c_17 : IVec S_ 1 := constantI S_ 1 1#1
  let main_v47 : IVec S_ 1 := (fun x v => Host.reduce IntOp.andi x v reducesTo_S1024x32_S_d0_1 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_arg13 main_arg14 main_arg15 main_arg16 main_v48 main_v49 main_v50

def fn_part1 {F : FTy → Type} [FloatOps F] (main_arg4 : FVec F S196x10 .f32) (main_arg5 : FVec F S196x10 .f32) (main_arg6 : FVec F S10 .f32) (main_arg7 : FVec F S10x1024 .f32) (main_arg8 : FVec F S1024 .f32) (main_arg9 : FVec F S1024x32 .f32) (main_arg10 : FVec F S32 .f32) (main_arg11 : FVec F S32x1024 .f32) (main_arg12 : FVec F S1024 .f32) (main_arg13 : FVec F S1024x2048 .f32) (main_arg14 : FVec F S2048 .f32) (main_arg15 : FVec F S2048x4096 .f32) (main_arg16 : FVec F S4096 .f32) (main_v13 : IVec S_ 1) (main_v16 : IVec S196 1) : IVec S_ 1 :=
  let main_c_5 : IVec S_ 1 := constantI S_ 1 1#1
  let main_v17 : IVec S_ 1 := (fun x v => Host.reduce IntOp.andi x v reducesTo_S196_S_d0 h_S_) main_v16 main_c_5
  let main_v18 : IVec S_ 1 := andi main_v13 main_v17
  let main_v19 : FVec F S196x10 .f32 := Host.absf main_arg4
  let main_cst_6 : FVec F S_ .f32 := constant S_ .f32 0x7F800000#32
  let main_v20 : FVec F S196x10 .f32 := broadcastInDim S196x10 ![] bcast_S_S196x10 main_cst_6
  let main_v21 : IVec S196x10 1 := cmpf .olt main_v19 main_v20
  let main_c_7 : IVec S_ 1 := constantI S_ 1 1#1
  let main_v22 : IVec S_ 1 := (fun x v => Host.reduce IntOp.andi x v reducesTo_S196x10_S_d0_1 h_S_) main_v21 main_c_7
  let main_v23 : IVec S_ 1 := andi main_v18 main_v22
  let main_v24 : FVec F S196x10 .f32 := Host.absf main_arg5
  let main_cst_8 : FVec F S_ .f32 := constant S_ .f32 0x7F800000#32
  let main_v25 : FVec F S196x10 .f32 := broadcastInDim S196x10 ![] bcast_S_S196x10 main_cst_8
  let main_v26 : IVec S196x10 1 := cmpf .olt main_v24 main_v25
  let main_c_9 : IVec S_ 1 := constantI S_ 1 1#1
  let main_v27 : IVec S_ 1 := (fun x v => Host.reduce IntOp.andi x v reducesTo_S196x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S8192x4096 .f32) (main_arg1 : FVec F S4096x196 .f32) (main_arg2 : FVec F S4096x196 .f32) (main_arg3 : FVec F S196 .f32) (main_arg4 : FVec F S196x10 .f32) (main_arg5 : FVec F S196x10 .f32) (main_arg6 : FVec F S10 .f32) (main_arg7 : FVec F S10x1024 .f32) (main_arg8 : FVec F S1024 .f32) (main_arg9 : FVec F S1024x32 .f32) (main_arg10 : FVec F S32 .f32) (main_arg11 : FVec F S32x1024 .f32) (main_arg12 : FVec F S1024 .f32) (main_arg13 : FVec F S1024x2048 .f32) (main_arg14 : FVec F S2048 .f32) (main_arg15 : FVec F S2048x4096 .f32) (main_arg16 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x196 .f32 := Host.absf main_arg1
  let main_cst_0 : FVec F S_ .f32 := constant S_ .f32 0x7F800000#32
  let main_v5 : FVec F S4096x196 .f32 := broadcastInDim S4096x196 ![] bcast_S_S4096x196 main_cst_0
  let main_v6 : IVec S4096x196 1 := cmpf .olt main_v4 main_v5
  let main_c_1 : IVec S_ 1 := constantI S_ 1 1#1
  let main_v7 : IVec S_ 1 := (fun x v => Host.reduce IntOp.andi x v reducesTo_S4096x196_S_d0_1 h_S_) main_v6 main_c_1
  let main_v8 : IVec S_ 1 := andi main_v3 main_v7
  let main_v9 : FVec F S4096x196 .f32 := Host.absf main_arg2
  let main_cst_2 : FVec F S_ .f32 := constant S_ .f32 0x7F800000#32
  let main_v10 : FVec F S4096x196 .f32 := broadcastInDim S4096x196 ![] bcast_S_S4096x196 main_cst_2
  let main_v11 : IVec S4096x196 1 := cmpf .olt main_v9 main_v10
  let main_c_3 : IVec S_ 1 := constantI S_ 1 1#1
  let main_v12 : IVec S_ 1 := (fun x v => Host.reduce IntOp.andi x v reducesTo_S4096x196_S_d0_1 h_S_) main_v11 main_c_3
  let main_v13 : IVec S_ 1 := andi main_v8 main_v12
  let main_v14 : FVec F S196 .f32 := Host.absf main_arg3
  let main_cst_4 : FVec F S_ .f32 := constant S_ .f32 0x7F800000#32
  let main_v15 : FVec F S196 .f32 := broadcastInDim S196 ![] bcast_S_S196 main_cst_4
  let main_v16 : IVec S196 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S8192x4096 : Shape := ⟨2, ![8192, 4096]⟩
abbrev S4096x196 : Shape := ⟨2, ![4096, 196]⟩
abbrev S196 : Shape := ⟨1, ![196]⟩
abbrev S196x10 : Shape := ⟨2, ![196, 10]⟩
abbrev S10 : Shape := ⟨1, ![10]⟩
abbrev S10x1024 : Shape := ⟨2, ![10, 1024]⟩
abbrev S1024 : Shape := ⟨1, ![1024]⟩
abbrev S1024x32 : Shape := ⟨2, ![1024, 32]⟩
abbrev S32 : Shape := ⟨1, ![32]⟩
abbrev S32x1024 : Shape := ⟨2, ![32, 1024]⟩
abbrev S1024x2048 : Shape := ⟨2, ![1024, 2048]⟩
abbrev S2048 : Shape := ⟨1, ![2048]⟩
abbrev S2048x4096 : Shape := ⟨2, ![2048, 4096]⟩
abbrev S4096 : Shape := ⟨1, ![4096]⟩
abbrev S1x196 : Shape := ⟨2, ![1, 196]⟩
abbrev S1x10 : Shape := ⟨2, ![1, 10]⟩
abbrev S1x1024 : Shape := ⟨2, ![1, 1024]⟩
abbrev S1x32 : Shape := ⟨2, ![1, 32]⟩
abbrev S1x2048 : Shape := ⟨2, ![1, 2048]⟩
abbrev S1x4096 : Shape := ⟨2, ![1, 4096]⟩
abbrev S8192x32 : Shape := ⟨2, ![8192, 32]⟩
abbrev S256x4096 : Shape := ⟨2, ![256, 4096]⟩
abbrev S256x32 : Shape := ⟨2, ![256, 32]⟩
abbrev S256x196 : Shape := ⟨2, ![256, 196]⟩
abbrev S256x10 : Shape := ⟨2, ![256, 10]⟩
abbrev S256x1024 : Shape := ⟨2, ![256, 1024]⟩
abbrev S256x2048 : Shape := ⟨2, ![256, 2048]⟩

abbrev nBuf : Space → Nat
  | .hbm => 35
  | .vmem => 22
  | .smem => 0
  | _ => 0

abbrev bufTy : (tb : Table) → Fin (tcTables nBuf tb) → BufTy
  | .hbm, ⟨0, _⟩ => ⟨S8192x4096, .f32⟩
  | .hbm, ⟨1, _⟩ => ⟨S4096x196, .f32⟩
  | .hbm, ⟨2, _⟩ => ⟨S4096x196, .f32⟩
  | .hbm, ⟨3, _⟩ => ⟨S196, .f32⟩
  | .hbm, ⟨4, _⟩ => ⟨S196x10, .f32⟩
  | .hbm, ⟨5, _⟩ => ⟨S196x10, .f32⟩
  | .hbm, ⟨6, _⟩ => ⟨S10, .f32⟩
  | .hbm, ⟨7, _⟩ => ⟨S10x1024, .f32⟩
  | .hbm, ⟨8, _⟩ => ⟨S1024, .f32⟩
  | .hbm, ⟨9, _⟩ => ⟨S1024x32, .f32⟩
  | .hbm, ⟨10, _⟩ => ⟨S32, .f32⟩
  | .hbm, ⟨11, _⟩ => ⟨S32x1024, .f32⟩
  | .hbm, ⟨12, _⟩ => ⟨S1024, .f32⟩
  | .hbm, ⟨13, _⟩ => ⟨S1024x2048, .f32⟩
  | .hbm, ⟨14, _⟩ => ⟨S2048, .f32⟩
  | .hbm, ⟨15, _⟩ => ⟨S2048x4096, .f32⟩
  | .hbm, ⟨16, _⟩ => ⟨S4096, .f32⟩
  | .hbm, ⟨17, _⟩ => ⟨S4096x196, .f32⟩
  | .hbm, ⟨18, _⟩ => ⟨S4096x196, .bf16⟩
  | .hbm, ⟨19, _⟩ => ⟨S196x10, .f32⟩
  | .hbm, ⟨20, _⟩ => ⟨S196x10, .bf16⟩
  | .hbm, ⟨21, _⟩ => ⟨S10x1024, .bf16⟩
  | .hbm, ⟨22, _⟩ => ⟨S1024x32, .bf16⟩
  | .hbm, ⟨23, _⟩ => ⟨S32x1024, .bf16⟩
  | .hbm, ⟨24, _⟩ => ⟨S1024x2048, .bf16⟩
  | .hbm, ⟨25, _⟩ => ⟨S2048x4096, .bf16⟩
  | .hbm, ⟨26, _⟩ => ⟨S1x196, .f32⟩
  | .hbm, ⟨27, _⟩ => ⟨S1x10, .f32⟩
  | .hbm, ⟨28, _⟩ => ⟨S1x1024, .f32⟩
  | .hbm, ⟨29, _⟩ => ⟨S1x32, .f32⟩
  | .hbm, ⟨30, _⟩ => ⟨S1x1024, .f32⟩
  | .hbm, ⟨31, _⟩ => ⟨S1x2048, .f32⟩
  | .hbm, ⟨32, _⟩ => ⟨S1x4096, .f32⟩
  | .hbm, ⟨33, _⟩ => ⟨S8192x32, .f32⟩
  | .hbm, ⟨34, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S4096x196, .bf16⟩
  | .local _ .vmem, ⟨3, _⟩ => ⟨S1x196, .f32⟩
  | .local _ .vmem, ⟨4, _⟩ => ⟨S196x10, .bf16⟩
  | .local _ .vmem, ⟨5, _⟩ => ⟨S1x10, .f32⟩
  | .local _ .vmem, ⟨6, _⟩ => ⟨S10x1024, .bf16⟩
  | .local _ .vmem, ⟨7, _⟩ => ⟨S1x1024, .f32⟩
  | .local _ .vmem, ⟨8, _⟩ => ⟨S1024x32, .bf16⟩
  | .local _ .vmem, ⟨9, _⟩ => ⟨S1x32, .f32⟩
  | .local _ .vmem, ⟨10, _⟩ => ⟨S256x32, .f32⟩
  | .local _ .vmem, ⟨11, _⟩ => ⟨S256x32, .f32⟩
  | .local _ .vmem, ⟨12, _⟩ => ⟨S256x32, .f32⟩
  | .local _ .vmem, ⟨13, _⟩ => ⟨S256x32, .f32⟩
  | .local _ .vmem, ⟨14, _⟩ => ⟨S32x1024, .bf16⟩
  | .local _ .vmem, ⟨15, _⟩ => ⟨S1x1024, .f32⟩
  | .local _ .vmem, ⟨16, _⟩ => ⟨S1024x2048, .bf16⟩
  | .local _ .vmem, ⟨17, _⟩ => ⟨S1x2048, .f32⟩
  | .local _ .vmem, ⟨18, _⟩ => ⟨S2048x4096, .bf16⟩
  | .local _ .vmem, ⟨19, _⟩ => ⟨S1x4096, .f32⟩
  | .local _ .vmem, ⟨20, _⟩ => ⟨S256x4096, .f32⟩
  | .local _ .vmem, ⟨21, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_v0 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x196 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x196 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S196x10 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x4096 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x4096 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bitsLt_bf16_f32 : FTy.bits .bf16 < FTy.bits .f32
  shapeCasts_S196_S1x196 : S196.ShapeCasts S1x196
  shapeCasts_S10_S1x10 : S10.ShapeCasts S1x10
  shapeCasts_S1024_S1x1024 : S1024.ShapeCasts S1x1024
  shapeCasts_S32_S1x32 : S32.ShapeCasts S1x32
  shapeCasts_S2048_S1x2048 : S2048.ShapeCasts S1x2048
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  inb_S4096x196_S4096x196_0_0 : ∀ a, (![0, 0] : Fin 2 → Nat) a + S4096x196.size a ≤ S4096x196.size a
  h_S4096x196 : 0 < S4096x196.numel
  shapeCasts_S4096x196_S4096x196 : S4096x196.ShapeCasts S4096x196
  inb_S1x196_S1x196_0_0 : ∀ a, (![0, 0] : Fin 2 → Nat) a + S1x196.size a ≤ S1x196.size a
  h_S1x196 : 0 < S1x196.numel
  shapeCasts_S1x196_S1x196 : S1x196.ShapeCasts S1x196
  broadcasts_S1x196_S256x196 : S1x196.Broadcasts S256x196
  inb_S196x10_S196x10_0_0 : ∀ a, (![0, 0] : Fin 2 → Nat) a + S196x10.size a ≤ S196x10.size a
  h_S196x10 : 0 < S196x10.numel
  shapeCasts_S196x10_S196x10 : S196x10.ShapeCasts S196x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  inb_S10x1024_S10x1024_0_0 : ∀ a, (![0, 0] : Fin 2 → Nat) a + S10x1024.size a ≤ S10x1024.size a
  h_S10x1024 : 0 < S10x1024.numel
  shapeCasts_S10x1024_S10x1024 : S10x1024.ShapeCasts S10x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  dot_S256x4096_S4096x196_S256x196_1_0_0_1_n_n_wf : DotDims.WF S256x4096 S4096x196 S256x196 [1] [0] [0] [1] [] []
  dot_S256x196_S196x10_S256x10_1_0_0_1_n_n_wf : DotDims.WF S256x196 S196x10 S256x10 [1] [0] [0] [1] [] []
  dot_S256x10_S10x1024_S256x1024_1_0_0_1_n_n_wf : DotDims.WF S256x10 S10x1024 S256x1024 [1] [0] [0] [1] [] []
  dot_S256x1024_S1024x32_S256x32_1_0_0_1_n_n_wf : DotDims.WF S256x1024 S1024x32 S256x32 [1] [0] [0] [1] [] []
  dot_S256x32_S32x1024_S256x1024_1_0_0_1_n_n_wf : DotDims.WF S256x32 S32x1024 S256x1024 [1] [0] [0] [1] [] []
  dot_S256x1024_S1024x2048_S256x2048_1_0_0_1_n_n_wf : DotDims.WF S256x1024 S1024x2048 S256x2048 [1] [0] [0] [1] [] []
  dot_S256x2048_S2048x4096_S256x4096_1_0_0_1_n_n_wf : DotDims.WF S256x2048 S2048x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x196.size a ≤ S4096x196.size a
  hwx0_1 : ∀ i : grid0.Coords, EltTy.bits .bf16 = 32 ∨ (Rect.block (s := S4096x196) S4096x196.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x196.size a ≤ S1x196.size a
  hwx0_2 : ∀ i : grid0.Coords, EltTy.bits .f32 = 32 ∨ (Rect.block (s := S1x196) S1x196.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S196x10.size a ≤ S196x10.size a
  hwx0_3 : ∀ i : grid0.Coords, EltTy.bits .bf16 = 32 ∨ (Rect.block (s := S196x10) S196x10.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10.size a ≤ S1x10.size a
  hwx0_4 : ∀ i : grid0.Coords, EltTy.bits .f32 = 32 ∨ (Rect.block (s := S1x10) S1x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x1024.size a ≤ S10x1024.size a
  hwx0_5 : ∀ i : grid0.Coords, EltTy.bits .bf16 = 32 ∨ (Rect.block (s := S10x1024) S10x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x32.size a ≤ S1024x32.size a
  hwx0_7 : ∀ i : grid0.Coords, EltTy.bits .bf16 = 32 ∨ (Rect.block (s := S1024x32) S1024x32.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x32.size a ≤ S8192x32.size a
  hwx0_9 : ∀ i : grid0.Coords, EltTy.bits .f32 = 32 ∨ (Rect.block (s := S8192x32) S256x32.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x32.size a ≤ S8192x32.size a
  hwx1_0 : ∀ i : grid1.Coords, EltTy.bits .f32 = 32 ∨ (Rect.block (s := S8192x32) S256x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x1024.size a ≤ S32x1024.size a
  hwx1_1 : ∀ i : grid1.Coords, EltTy.bits .bf16 = 32 ∨ (Rect.block (s := S32x1024) S32x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S1024x2048.size a
  hwx1_3 : ∀ i : grid1.Coords, EltTy.bits .bf16 = 32 ∨ (Rect.block (s := S1024x2048) S1024x2048.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x2048.size a
  hwx1_4 : ∀ i : grid1.Coords, EltTy.bits .f32 = 32 ∨ (Rect.block (s := S1x2048) S1x2048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048x4096.size a ≤ S2048x4096.size a
  hwx1_5 : ∀ i : grid1.Coords, EltTy.bits .bf16 = 32 ∨ (Rect.block (s := S2048x4096) S2048x4096.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x4096.size a ≤ S1x4096.size a
  hwx1_6 : ∀ i : grid1.Coords, EltTy.bits .f32 = 32 ∨ (Rect.block (s := S1x4096) S1x4096.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x4096.size a ≤ S8192x4096.size a
  hwx1_7 : ∀ i : grid1.Coords, EltTy.bits .f32 = 32 ∨ (Rect.block (s := S8192x4096) S256x4096.size (cc1_transform_7 i) (hinb1_7 i)).WholeWords (EltTy.packing .f32)

variable [Facts₀]

def dot_S256x4096_S4096x196_S256x196_1_0_0_1_n_n : DotDims S256x4096 S4096x196 S256x196 where
  lhsContracting := [1]
  rhsContracting := [0]
  lhsNonContracting := [0]
  rhsNonContracting := [1]
  lhsBatch := []
  rhsBatch := []
  wf := dot_S256x4096_S4096x196_S256x196_1_0_0_1_n_n_wf
def dot_S256x196_S196x10_S256x10_1_0_0_1_n_n : DotDims S256x196 S196x10 S256x10 where
  lhsContracting := [1]
  rhsContracting := [0]
  lhsNonContracting := [0]
  rhsNonContracting := [1]
  lhsBatch := []
  rhsBatch := []
  wf := dot_S256x196_S196x10_S256x10_1_0_0_1_n_n_wf
def dot_S256x10_S10x1024_S256x1024_1_0_0_1_n_n : DotDims S256x10 S10x1024 S256x1024 where
  lhsContracting := [1]
  rhsContracting := [0]
  lhsNonContracting := [0]
  rhsNonContracting := [1]
  lhsBatch := []
  rhsBatch := []
  wf := dot_S256x10_S10x1024_S256x1024_1_0_0_1_n_n_wf
def dot_S256x1024_S1024x32_S256x32_1_0_0_1_n_n : DotDims S256x1024 S1024x32 S256x32 where
  lhsContracting := [1]
  rhsContracting := [0]
  lhsNonContracting := [0]
  rhsNonContracting := [1]
  lhsBatch := []
  rhsBatch := []
  wf := dot_S256x1024_S1024x32_S256x32_1_0_0_1_n_n_wf
def dot_S256x32_S32x1024_S256x1024_1_0_0_1_n_n : DotDims S256x32 S32x1024 S256x1024 where
  lhsContracting := [1]
  rhsContracting := [0]
  lhsNonContracting := [0]
  rhsNonContracting := [1]
  lhsBatch := []
  rhsBatch := []
  wf := dot_S256x32_S32x1024_S256x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S4096x196.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v9) S1x196.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S196x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v10) S1x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v4) S10x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v11) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v5) S1024x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v12) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v16) S256x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_call0_v16) S256x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v6) S32x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v13) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v7) S1024x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v14) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v8) S2048x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v15) S1x4096.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v0) S256x4096.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x196 : Shape := ⟨2, ![4096, 196]⟩
abbrev S196 : Shape := ⟨1, ![196]⟩
abbrev S196x10 : Shape := ⟨2, ![196, 10]⟩
abbrev S10 : Shape := ⟨1, ![10]⟩
abbrev S10x1024 : Shape := ⟨2, ![10, 1024]⟩
abbrev S1024 : Shape := ⟨1, ![1024]⟩
abbrev S1024x32 : Shape := ⟨2, ![1024, 32]⟩
abbrev S32 : Shape := ⟨1, ![32]⟩
abbrev S32x1024 : Shape := ⟨2, ![32, 1024]⟩
abbrev S1024x2048 : Shape := ⟨2, ![1024, 2048]⟩
abbrev S2048 : Shape := ⟨1, ![2048]⟩
abbrev S2048x4096 : Shape := ⟨2, ![2048, 4096]⟩
abbrev S4096 : Shape := ⟨1, ![4096]⟩
abbrev S8192x196 : Shape := ⟨2, ![8192, 196]⟩
abbrev S1x196 : Shape := ⟨2, ![1, 196]⟩
abbrev S_ : Shape := ⟨0, ![]⟩
abbrev S8192x10 : Shape := ⟨2, ![8192, 10]⟩
abbrev S1x10 : Shape := ⟨2, ![1, 10]⟩
abbrev S8192x1024 : Shape := ⟨2, ![8192, 1024]⟩
abbrev S1x1024 : Shape := ⟨2, ![1, 1024]⟩
abbrev S8192x32 : Shape := ⟨2, ![8192, 32]⟩
abbrev S1x32 : Shape := ⟨2, ![1, 32]⟩
abbrev S8192x2048 : Shape := ⟨2, ![8192, 2048]⟩
abbrev S1x2048 : Shape := ⟨2, ![1, 2048]⟩
abbrev S1x4096 : Shape := ⟨2, ![1, 4096]⟩

abbrev nBuf : Space → Nat
  | .hbm => 73
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x196, .f32⟩
  | .hbm, ⟨2, _⟩ => ⟨S4096x196, .f32⟩
  | .hbm, ⟨3, _⟩ => ⟨S196, .f32⟩
  | .hbm, ⟨4, _⟩ => ⟨S196x10, .f32⟩
  | .hbm, ⟨5, _⟩ => ⟨S196x10, .f32⟩
  | .hbm, ⟨6, _⟩ => ⟨S10, .f32⟩
  | .hbm, ⟨7, _⟩ => ⟨S10x1024, .f32⟩
  | .hbm, ⟨8, _⟩ => ⟨S1024, .f32⟩
  | .hbm, ⟨9, _⟩ => ⟨S1024x32, .f32⟩
  | .hbm, ⟨10, _⟩ => ⟨S32, .f32⟩
  | .hbm, ⟨11, _⟩ => ⟨S32x1024, .f32⟩
  | .hbm, ⟨12, _⟩ => ⟨S1024, .f32⟩
  | .hbm, ⟨13, _⟩ => ⟨S1024x2048, .f32⟩
  | .hbm, ⟨14, _⟩ => ⟨S2048, .f32⟩
  | .hbm, ⟨15, _⟩ => ⟨S2048x4096, .f32⟩
  | .hbm, ⟨16, _⟩ => ⟨S4096, .f32⟩
  | .hbm, ⟨17, _⟩ => ⟨S4096x196, .f32⟩
  | .hbm, ⟨18, _⟩ => ⟨S8192x196, .f32⟩
  | .hbm, ⟨19, _⟩ => ⟨S1x196, .f32⟩
  | .hbm, ⟨20, _⟩ => ⟨S8192x196, .f32⟩
  | .hbm, ⟨21, _⟩ => ⟨S8192x196, .f32⟩
  | .hbm, ⟨22, _⟩ => ⟨S_, .f32⟩
  | .hbm, ⟨23, _⟩ => ⟨S8192x196, .f32⟩
  | .hbm, ⟨24, _⟩ => ⟨S8192x196, .f32⟩
  | .hbm, ⟨25, _⟩ => ⟨S196x10, .f32⟩
  | .hbm, ⟨26, _⟩ => ⟨S8192x10, .f32⟩
  | .hbm, ⟨27, _⟩ => ⟨S1x10, .f32⟩
  | .hbm, ⟨28, _⟩ => ⟨S8192x10, .f32⟩
  | .hbm, ⟨29, _⟩ => ⟨S8192x10, .f32⟩
  | .hbm, ⟨30, _⟩ => ⟨S_, .f32⟩
  | .hbm, ⟨31, _⟩ => ⟨S8192x10, .f32⟩
  | .hbm, ⟨32, _⟩ => ⟨S8192x10, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x32, .f32⟩
  | .hbm, ⟨41, _⟩ => ⟨S1x32, .f32⟩
  | .hbm, ⟨42, _⟩ => ⟨S8192x32, .f32⟩
  | .hbm, ⟨43, _⟩ => ⟨S8192x32, .f32⟩
  | .hbm, ⟨44, _⟩ => ⟨S_, .f32⟩
  | .hbm, ⟨45, _⟩ => ⟨S8192x32, .f32⟩
  | .hbm, ⟨46, _⟩ => ⟨S8192x32, .f32⟩
  | .hbm, ⟨47, _⟩ => ⟨S8192x1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x2048, .f32⟩
  | .hbm, ⟨55, _⟩ => ⟨S1x2048, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S8192x2048, .f32⟩
  | .hbm, ⟨60, _⟩ => ⟨S8192x2048, .f32⟩
  | .hbm, ⟨61, _⟩ => ⟨S8192x4096, .f32⟩
  | .hbm, ⟨62, _⟩ => ⟨S1x4096, .f32⟩
  | .hbm, ⟨63, _⟩ => ⟨S8192x4096, .f32⟩
  | .hbm, ⟨64, _⟩ => ⟨S8192x4096, .f32⟩
  | .hbm, ⟨65, _⟩ => ⟨S8192x4096, .f32⟩
  | .hbm, ⟨66, _⟩ => ⟨S8192x4096, .f32⟩
  | .hbm, ⟨67, _⟩ => ⟨S_, .f32⟩
  | .hbm, ⟨68, _⟩ => ⟨S8192x4096, .f32⟩
  | .hbm, ⟨69, _⟩ => ⟨S8192x4096, .f32⟩
  | .hbm, ⟨70, _⟩ => ⟨S_, .f32⟩
  | .hbm, ⟨71, _⟩ => ⟨S8192x4096, .f32⟩
  | .hbm, ⟨72, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call0_cst : Ref sig .tc := ⟨.hbm, 22, rfl⟩
abbrev main_call0_v0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_call1_cst : Ref sig .tc := ⟨.hbm, 30, rfl⟩
abbrev main_call1_v0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_call2_cst : Ref sig .tc := ⟨.hbm, 37, rfl⟩
abbrev main_call2_v0 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_call3_cst : Ref sig .tc := ⟨.hbm, 44, rfl⟩
abbrev main_call3_v0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_call4_cst : Ref sig .tc := ⟨.hbm, 51, rfl⟩
abbrev main_call4_v0 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_call5_cst : Ref sig .tc := ⟨.hbm, 58, rfl⟩
abbrev main_call5_v0 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst : Ref sig .tc := ⟨.hbm, 67, rfl⟩
abbrev main_v38 : Ref sig .tc := ⟨.hbm, 68, rfl⟩
abbrev main_v39 : Ref sig .tc := ⟨.hbm, 69, rfl⟩
abbrev main_cst_0 : Ref sig .tc := ⟨.hbm, 70, rfl⟩
abbrev main_v40 : Ref sig .tc := ⟨.hbm, 71, rfl⟩
abbrev main_v41 : Ref sig .tc := ⟨.hbm, 72, rfl⟩

abbrev nD : Nat := 1
abbrev τ : Topo := Topo.v7x

variable {F : FTy → Type} [FloatOps F]

class Facts₀ : Prop where
  bcast_S196_S1x196_1 : S196.BroadcastsInDim S1x196 (![1] : Fin 1 → Fin S1x196.rank)
  bcast_S1x196_S8192x196_0_1 : S1x196.BroadcastsInDim S8192x196 (![0, 1] : Fin 2 → Fin S8192x196.rank)
  bcast_S_S8192x196 : S_.BroadcastsInDim S8192x196 (![] : Fin 0 → Fin S8192x196.rank)
  bcast_S10_S1x10_1 : S10.BroadcastsInDim S1x10 (![1] : Fin 1 → Fin S1x10.rank)
  bcast_S1x10_S8192x10_0_1 : S1x10.BroadcastsInDim S8192x10 (![0, 1] : Fin 2 → Fin S8192x10.rank)
  bcast_S_S8192x10 : S_.BroadcastsInDim S8192x10 (![] : Fin 0 → Fin S8192x10.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x196_S8192x196_1_0_0_1_n_n_wf : DotDims.WF S8192x4096 S4096x196 S8192x196 [1] [0] [0] [1] [] []
  dot_S8192x196_S196x10_S8192x10_1_0_0_1_n_n_wf : DotDims.WF S8192x196 S196x10 S8192x10 [1] [0] [0] [1] [] []
  dot_S8192x10_S10x1024_S8192x1024_1_0_0_1_n_n_wf : DotDims.WF S8192x10 S10x1024 S8192x1024 [1] [0] [0] [1] [] []
  dot_S8192x1024_S1024x32_S8192x32_1_0_0_1_n_n_wf : DotDims.WF S8192x1024 S1024x32 S8192x32 [1] [0] [0] [1] [] []
  dot_S8192x32_S32x1024_S8192x1024_1_0_0_1_n_n_wf : DotDims.WF S8192x32 S32x1024 S8192x1024 [1] [0] [0] [1] [] []
  dot_S8192x1024_S1024x2048_S8192x2048_1_0_0_1_n_n_wf : DotDims.WF S8192x1024 S1024x2048 S8192x2048 [1] [0] [0] [1] [] []
  dot_S8192x2048_S2048x4096_S8192x4096_1_0_0_1_n_n_wf : DotDims.WF S8192x2048 S2048x4096 S8192x4096 [1] [0] [0] [1] [] []

variable [Facts₀]

def dot_S8192x4096_S4096x196_S8192x196_1_0_0_1_n_n : DotDims S8192x4096 S4096x196 S8192x196 where
  lhsContracting := [1]
  rhsContracting := [0]
  lhsNonContracting := [0]
  rhsNonContracting := [1]
  lhsBatch := []
  rhsBatch := []
  wf := dot_S8192x4096_S4096x196_S8192x196_1_0_0_1_n_n_wf
def dot_S8192x196_S196x10_S8192x10_1_0_0_1_n_n : DotDims S8192x196 S196x10 S8192x10 where
  lhsContracting := [1]
  rhsContracting := [0]
  lhsNonContracting := [0]
  rhsNonContracting := [1]
  lhsBatch := []
  rhsBatch := []
  wf := dot_S8192x196_S196x10_S8192x10_1_0_0_1_n_n_wf
def dot_S8192x10_S10x1024_S8192x1024_1_0_0_1_n_n : DotDims S8192x10 S10x1024 S8192x1024 where
  lhsContracting := [1]
  rhsContracting := [0]
  lhsNonContracting := [0]
  rhsNonContracting := [1]
  lhsBatch := []
  rhsBatch := []
  wf := dot_S8192x10_S10x1024_S8192x1024_1_0_0_1_n_n_wf
def dot_S8192x1024_S1024x32_S8192x32_1_0_0_1_n_n : DotDims S8192x1024 S1024x32 S8192x32 where
  lhsContracting := [1]
  rhsContracting := [0]
  lhsNonContracting := [0]
  rhsNonContracting := [1]
  lhsBatch := []
  rhsBatch := []
  wf := dot_S8192x1024_S1024x32_S8192x32_1_0_0_1_n_n_wf
def dot_S8192x32_S32x1024_S8192x1024_1_0_0_1_n_n : DotDims S8192x32 S32x1024 S8192x1024 where
  lhsContracting := [1]
  rhsContracting := [0]
  lhsNonContracting := [0]
  rhsNonContracting := [1]
  lhsBatch := []
  rhsBatch := []
  wf := dot_S8192x32_S32x1024_S8192x1024_1_0_0_1_n_n_wf
def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.KernelRun.lean ====
/-
  The program's run, read at its end. The program is three stretches: the host operations that prepare the weights and
  biases, the encoder's grid, the decoder's grid. Every weakly fair execution from a memory with all counters at zero
  terminates without a fault, and in the final memory every buffer that outlives the kernels holds what the last
  stretch leaves there — the result array and the parameter arrays among them. The stretches and their boundary
  contents are the generated frame's; stated here is the run with all of the last boundary kept, from which both the
  unchanged arguments and the result's value are read.
-/
import proofs.«146191_j72189810311776_2_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and every buffer that is not a kernel's scratch ends at the
    contents of the last boundary: the launch deals each core its buffers at the launch contents, the three stretches
    chain from boundary to boundary, and the last thread state is read against the final memory. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.KernelIdeal.RunAll

end
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.LibDenseRows.lean ====
/-
  Dense layers, one row at a time. A dense layer sends a row v of K numbers to the row whose entry q is
  (∑ₖ v k · w(k, q)) + b q; followed by the maximum with zero it is a rectifier layer, followed by the logistic
  function a sigmoid layer. A row of the result depends on the same row of the operand only, so a stack of such
  layers applied to a matrix is the stack applied to each row. Stated here, on the extended reals and general in
  the three extents: the layer on rows (affineRow, reluRow, logisticRow) and two spellings of it on whole matrices,
  read at an entry — a kernel's (operands narrowed to bf16, a matrix product into a zero accumulator, a one-row
  bias [1, N] laid along every row) and a host program's (dot_general, the bias [N] laid as a row [1, N] and spread
  over [M, N]; the rectifier as a maximum with a splat zero; the sigmoid written 1 / (1 + exp (−z))).
-/
import proofs.«146191_j72189810311776_2_alg».proof.Proof.LibPlainDot
import Idealize.ShloMosaic.Lib.ValueLayout
import Idealize.ShloMosaic.Lib.IdealHost
import Idealize.ShloMosaic.Lib.KernelVsHost
import Idealize.ShloMosaic.Lib.Pipeline.Value

noncomputable section

namespace Idealize.ShloMosaic.DenseRows

open Idealize.ShloMosaic Idealize.ShloMosaic.ValueIdx
open scoped BigOperators

/-! ## A layer on one row -/

/-- The affine part of a dense layer on the row `v`: entry `q` is `(∑ₖ v k · w k q) + b q`. -/
def affineRow {K N : ℕ} (w : Fin K → Fin N → EReal) (b : Fin N → EReal) (v : Fin K → EReal) : Fin N → EReal :=
  fun q => (∑ k : Fin K, v k * w k q) + b q

/-- A rectifier layer on a row: the affine part, then the maximum with zero. -/
def reluRow {K N : ℕ} (w : Fin K → Fin N → EReal) (b : Fin N → EReal) (v : Fin K → EReal) : Fin N → EReal :=
  fun q => max (affineRow w b v q) 0

/-- A sigmoid layer on a row: the affine part, then the logistic function. -/
def logisticRow {K N : ℕ} (w : Fin K → Fin N → EReal) (b : Fin N → EReal) (v : Fin K → EReal) : Fin N → EReal :=
  fun q => Ideal.logistic (affineRow w b v q)

/-! ## Arrays by coordinates -/

/-- A matrix as a function of its two coordinates; `entries x p` is its row `p`. -/
def entries {A B : ℕ} (x : (⟨2, ![A, B]⟩ : Shape).Idx → EReal) : Fin A → Fin B → EReal := fun a b => x (ix2 a b)

/-- A vector as a function of its coordinate. -/
def vecEntries {N : ℕ} (b : (⟨1, ![N]⟩ : Shape).Idx → EReal) : Fin N → EReal := fun q => b (ix1 q)

/-- A one-row matrix as a function of its column. -/
def rowEntries {N : ℕ} (b : (⟨2, ![1, N]⟩ : Shape).Idx → EReal) : Fin N → EReal := fun q => b (ix2 (0 : Fin 1) q)

variable {M K N : ℕ}

/-! ## A kernel's spelling -/

/-- The affine part as a kernel body writes it on a block of rows: the rows narrowed to bf16, the matrix product
    with the weights into a zero accumulator, the bias row laid along every row and added. -/
def kernelAffine (d : DotDims ⟨2, ![M, K]⟩ ⟨2, ![K, N]⟩ ⟨2, ![M, N]⟩)
    (x : FVec Ideal ⟨2, ![M, K]⟩ .f32) (hx : FTy.bits .bf16 < FTy.bits .f32)
    (w : FVec Ideal ⟨2, ![K, N]⟩ .bf16) (hw : (⟨2, ![K, N]⟩ : Shape).ShapeCasts ⟨2, ![K, N]⟩)
    (b : FVec Ideal ⟨2, ![1, N]⟩ .f32) (hb : (⟨2, ![1, N]⟩ : Shape).ShapeCasts ⟨2, ![1, N]⟩)
    (hbc : (⟨2, ![1, N]⟩ : Shape).Broadcasts ⟨2, ![M, N]⟩) : FVec Ideal ⟨2, ![M, N]⟩ .f32 :=
  addf (matmul d none (truncf .bf16 x hx) (shapeCast ⟨2, ![K, N]⟩ w hw) (constant ⟨2, ![M, N]⟩ .f32 0x00000000#32))
    (broadcastTo ⟨2, ![M, N]⟩ (shapeCast ⟨2, ![1, N]⟩ b hb) hbc)

/-- Row `p` of the kernel's affine part is the affine map of row `p` of the operand. -/
theorem kernelAffine_apply (d : DotDims ⟨2, ![M, K]⟩ ⟨2, ![K, N]⟩ ⟨2, ![M, N]⟩) (hd : d = DotDims.plain M K N)
    (x : FVec Ideal ⟨2, ![M, K]⟩ .f32) (hx : FTy.bits .bf16 < FTy.bits .f32)
    (w : FVec Ideal ⟨2, ![K, N]⟩ .bf16) (hw : (⟨2, ![K, N]⟩ : Shape).ShapeCasts ⟨2, ![K, N]⟩)
    (b : FVec Ideal ⟨2, ![1, N]⟩ .f32) (hb : (⟨2, ![1, N]⟩ : Shape).ShapeCasts ⟨2, ![1, N]⟩)
    (hbc : (⟨2, ![1, N]⟩ : Shape).Broadcasts ⟨2, ![M, N]⟩) (p : Fin M) (q : Fin N) :
    kernelAffine d x hx w hw b hb hbc (ix2 p q) = affineRow (entries w) (rowEntries b) (entries x p) q := by
  unfold kernelAffine affineRow entries rowEntries
  show FloatOps.matmul d none (truncf .bf16 x hx) (shapeCast ⟨2, ![K, N]⟩ w hw) (constant ⟨2, ![M, N]⟩ .f32 0x00000000#32) (ix2 p q)
      + broadcastTo ⟨2, ![M, N]⟩ (shapeCast ⟨2, ![1, N]⟩ b hb) hbc (ix2 p q) = _
  rw [matmul_plain_zero_apply d hd, broadcastTo_1b_ab_apply, shapeCast_self, shapeCast_self]
  rfl

/-- A rectifier layer as a kernel body writes it: the affine part and the maximum with a splat zero. -/
def kernelRelu (d : DotDims ⟨2, ![M, K]⟩ ⟨2, ![K, N]⟩ ⟨2, ![M, N]⟩)
    (x : FVec Ideal ⟨2, ![M, K]⟩ .f32) (hx : FTy.bits .bf16 < FTy.bits .f32)
    (w : FVec Ideal ⟨2, ![K, N]⟩ .bf16) (hw : (⟨2, ![K, N]⟩ : Shape).ShapeCasts ⟨2, ![K, N]⟩)
    (b : FVec Ideal ⟨2, ![1, N]⟩ .f32) (hb : (⟨2, ![1, N]⟩ : Shape).ShapeCasts ⟨2, ![1, N]⟩)
    (hbc : (⟨2, ![1, N]⟩ : Shape).Broadcasts ⟨2, ![M, N]⟩) : FVec Ideal ⟨2, ![M, N]⟩ .f32 :=
  maximumf (kernelAffine d x hx w hw b hb hbc) (broadcast ⟨2, ![M, N]⟩ (Scalar.ofBits (F := Ideal) .f32 0x00000000#32))

/-- Row `p` of the kernel's rectifier layer is the rectifier layer of row `p` of the operand. -/
theorem kernelRelu_apply (d : DotDims ⟨2, ![M, K]⟩ ⟨2, ![K, N]⟩ ⟨2, ![M, N]⟩) (hd : d = DotDims.plain M K N)
    (x : FVec Ideal ⟨2, ![M, K]⟩ .f32) (hx : FTy.bits .bf16 < FTy.bits .f32)
    (w : FVec Ideal ⟨2, ![K, N]⟩ .bf16) (hw : (⟨2, ![K, N]⟩ : Shape).ShapeCasts ⟨2, ![K, N]⟩)
    (b : FVec Ideal ⟨2, ![1, N]⟩ .f32) (hb : (⟨2, ![1, N]⟩ : Shape).ShapeCasts ⟨2, ![1, N]⟩)
    (hbc : (⟨2, ![1, N]⟩ : Shape).Broadcasts ⟨2, ![M, N]⟩) (p : Fin M) (q : Fin N) :
    kernelRelu d x hx w hw b hb hbc (ix2 p q) = reluRow (entries w) (rowEntries b) (entries x p) q := by
  unfold kernelRelu reluRow
  show max (kernelAffine d x hx w hw b hb hbc (ix2 p q)) (Ideal.ofBits .f32 0x00000000#32) = _
  rw [kernelAffine_apply d hd, Ideal.ofBits_zero_f32]

/-- The same, a whole row at a time: what the next layer of a stack reads. -/
theorem kernelRelu_row (d : DotDims ⟨2, ![M, K]⟩ ⟨2, ![K, N]⟩ ⟨2, ![M, N]⟩) (hd : d = DotDims.plain M K N)
    (x : FVec Ideal ⟨2, ![M, K]⟩ .f32) (hx : FTy.bits .bf16 < FTy.bits .f32)
    (w : FVec Ideal ⟨2, ![K, N]⟩ .bf16) (hw : (⟨2, ![K, N]⟩ : Shape).ShapeCasts ⟨2, ![K, N]⟩)
    (b : FVec Ideal ⟨2, ![1, N]⟩ .f32) (hb : (⟨2, ![1, N]⟩ : Shape).ShapeCasts ⟨2, ![1, N]⟩)
    (hbc : (⟨2, ![1, N]⟩ : Shape).Broadcasts ⟨2, ![M, N]⟩) (p : Fin M) :
    entries (kernelRelu d x hx w hw b hb hbc) p = reluRow (entries w) (rowEntries b) (entries x p) :=
  funext fun q => kernelRelu_apply d hd x hx w hw b hb hbc p q

/-- A sigmoid layer as a kernel body writes it: the affine part and the logistic operation. -/
def kernelLogistic (d : DotDims ⟨2, ![M, K]⟩ ⟨2, ![K, N]⟩ ⟨2, ![M, N]⟩)
    (x : FVec Ideal ⟨2, ![M, K]⟩ .f32) (hx : FTy.bits .bf16 < FTy.bits .f32)
    (w : FVec Ideal ⟨2, ![K, N]⟩ .bf16) (hw : (⟨2, ![K, N]⟩ : Shape).ShapeCasts ⟨2, ![K, N]⟩)
    (b : FVec Ideal ⟨2, ![1, N]⟩ .f32) (hb : (⟨2, ![1, N]⟩ : Shape).ShapeCasts ⟨2, ![1, N]⟩)
    (hbc : (⟨2, ![1, N]⟩ : Shape).Broadcasts ⟨2, ![M, N]⟩) : FVec Ideal ⟨2, ![M, N]⟩ .f32 :=
  logistic (kernelAffine d x hx w hw b hb hbc)

/-- Row `p` of the kernel's sigmoid layer is the sigmoid layer of row `p` of the operand. -/
theorem kernelLogistic_apply (d : DotDims ⟨2, ![M, K]⟩ ⟨2, ![K, N]⟩ ⟨2, ![M, N]⟩) (hd : d = DotDims.plain M K N)
    (x : FVec Ideal ⟨2, ![M, K]⟩ .f32) (hx : FTy.bits .bf16 < FTy.bits .f32)
    (w : FVec Ideal ⟨2, ![K, N]⟩ .bf16) (hw : (⟨2, ![K, N]⟩ : Shape).ShapeCasts ⟨2, ![K, N]⟩)
    (b : FVec Ideal ⟨2, ![1, N]⟩ .f32) (hb : (⟨2, ![1, N]⟩ : Shape).ShapeCasts ⟨2, ![1, N]⟩)
    (hbc : (⟨2, ![1, N]⟩ : Shape).Broadcasts ⟨2, ![M, N]⟩) (p : Fin M) (q : Fin N) :
    kernelLogistic d x hx w hw b hb hbc (ix2 p q) = logisticRow (entries w) (rowEntries b) (entries x p) q := by
  unfold kernelLogistic logisticRow
  show Ideal.logistic (kernelAffine d x hx w hw b hb hbc (ix2 p q)) = _
  rw [kernelAffine_apply d hd]

/-! ## A host program's spelling -/

/-- A vector `[N]` laid as the one-row matrix `[1, N]`: entry `(u, q)` is the vector's entry `q`. -/
theorem broadcastInDim_vec_row_apply {α : Type} (b : (⟨1, ![N]⟩ : Shape).Idx → α)
    (h : (⟨1, ![N]⟩ : Shape).BroadcastsInDim ⟨2, ![1, N]⟩ (![1] : Fin 1 → Fin 2)) (u : Fin 1) (q : Fin N) :
    broadcastInDim ⟨2, ![1, N]⟩ ![1] h b (ix2 u q) = b (ix1 q) := by
  refine broadcastInDim_apply _ h b _ (ix1 q) fun ax => ?_
  match ax with
  | ⟨0, _⟩ =>
    show q.val = if N = 1 then 0 else q.val
    split
    · have := q.isLt; omega
    · rfl

/-- The affine part as a host program writes it: dot_general, the bias vector laid as a row and spread over the
    rows, added. -/
def hostAffine (d : DotDims ⟨2, ![M, K]⟩ ⟨2, ![K, N]⟩ ⟨2, ![M, N]⟩)
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) : FVec Ideal ⟨2, ![M, N]⟩ .f32 :=
  addf (Host.dotGeneral d none x w) (broadcastInDim ⟨2, ![M, N]⟩ ![0, 1] h2 (broadcastInDim ⟨2, ![1, N]⟩ ![1] h1 b))

/-- Row `p` of the host's affine part is the affine map of row `p` of the operand. -/
theorem hostAffine_apply (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (p : Fin M) (q : Fin N) :
    hostAffine d x w b h1 h2 (ix2 p q) = affineRow (entries w) (vecEntries b) (entries x p) q := by
  unfold hostAffine affineRow entries vecEntries
  show FloatOps.dotGeneral d none .single x w (ix2 p q)
      + broadcastInDim ⟨2, ![M, N]⟩ ![0, 1] h2 (broadcastInDim ⟨2, ![1, N]⟩ ![1] h1 b) (ix2 p q) = _
  rw [dotGeneral_plain_apply d hd, broadcastInDim_oneRow_apply, broadcastInDim_vec_row_apply]

/-- A rectifier layer as a host program writes it: the affine part and the maximum with a zero splat. -/
def hostRelu (d : DotDims ⟨2, ![M, K]⟩ ⟨2, ![K, N]⟩ ⟨2, ![M, N]⟩)
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) : FVec Ideal ⟨2, ![M, N]⟩ .f32 :=
  maximumf (hostAffine d x w b h1 h2) (broadcastInDim ⟨2, ![M, N]⟩ ![] h0 (constant (F := Ideal) ⟨0, ![]⟩ .f32 0x00000000#32))

/-- Row `p` of the host's rectifier layer is the rectifier layer of row `p` of the operand. -/
theorem hostRelu_apply (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) (p : Fin M) (q : Fin N) :
    hostRelu d x w b h1 h2 h0 (ix2 p q) = reluRow (entries w) (vecEntries b) (entries x p) q := by
  unfold hostRelu reluRow
  show max (hostAffine d x w b h1 h2 (ix2 p q))
      (broadcastInDim ⟨2, ![M, N]⟩ ![] h0 (constant (F := Ideal) ⟨0, ![]⟩ .f32 0x00000000#32) (ix2 p q)) = _
  rw [hostAffine_apply d hd, broadcastInDim_scalar_apply]
  show max _ (Ideal.ofBits .f32 0x00000000#32) = _
  rw [Ideal.ofBits_zero_f32]

/-- The same, a whole row at a time: what the next layer of a stack reads. -/
theorem hostRelu_row (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) (p : Fin M) :
    entries (hostRelu d x w b h1 h2 h0) p = reluRow (entries w) (vecEntries b) (entries x p) :=
  funext fun q => hostRelu_apply d hd x w b h1 h2 h0 p q

/-- A sigmoid layer as a host program writes it: one over one plus the exponential of the negated affine part,
    the ones splat from the constant 1.0. -/
def hostSigmoid (d : DotDims ⟨2, ![M, K]⟩ ⟨2, ![K, N]⟩ ⟨2, ![M, N]⟩)
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) : FVec Ideal ⟨2, ![M, N]⟩ .f32 :=
  Host.divf (broadcastInDim ⟨2, ![M, N]⟩ ![] h0 (constant (F := Ideal) ⟨0, ![]⟩ .f32 0x3F800000#32))
    (addf (broadcastInDim ⟨2, ![M, N]⟩ ![] h0 (constant (F := Ideal) ⟨0, ![]⟩ .f32 0x3F800000#32))
      (Host.exp (Host.negf (hostAffine d x w b h1 h2))))

/-- Row `p` of the host's sigmoid layer is the sigmoid layer of row `p` of the operand: the logistic function
    is one over one plus the exponential of the negative, at every extended real. -/
theorem hostSigmoid_apply (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) (p : Fin M) (q : Fin N) :
    hostSigmoid d x w b h1 h2 h0 (ix2 p q) = logisticRow (entries w) (vecEntries b) (entries x p) q := by
  unfold hostSigmoid logisticRow
  show Ideal.div (broadcastInDim ⟨2, ![M, N]⟩ ![] h0 (constant (F := Ideal) ⟨0, ![]⟩ .f32 0x3F800000#32) (ix2 p q))
      (broadcastInDim ⟨2, ![M, N]⟩ ![] h0 (constant (F := Ideal) ⟨0, ![]⟩ .f32 0x3F800000#32) (ix2 p q)
        + Ideal.exp (-(hostAffine d x w b h1 h2 (ix2 p q)))) = _
  rw [hostAffine_apply d hd, broadcastInDim_scalar_apply]
  show Ideal.div (Ideal.ofBits .f32 0x3F800000#32) (Ideal.ofBits .f32 0x3F800000#32 + _) = _
  rw [Ideal.ofBits_one_f32]
  rfl

end Idealize.ShloMosaic.DenseRows

end
-- ==== Proof.Network.lean ====
/-
  The autoencoder, one row at a time. Seven dense layers: an encoder of four rectifier layers
  4096 → 196 → 10 → 1024 → 32 (the first two with weights multiplied entry by entry by a fixed 0/1 mask) and a
  decoder of two rectifier layers 32 → 1024 → 2048 and a sigmoid layer 2048 → 4096. No layer mixes rows, so the
  network on a batch of 8192 rows is the network on each row: row p of the result is the decoder of the encoder
  of row p of the input. This file states that function on the extended reals; nothing here is about a program.
-/
import proofs.«146191_j72189810311776_2_alg».proof.Proof.LibDenseRows

noncomputable section

namespace Cert.Autoencoder

open Idealize.ShloMosaic Idealize.ShloMosaic.ValueIdx Idealize.ShloMosaic.DenseRows

/-- The seven layers' weights and biases by coordinates (the two masked weight matrices already multiplied by
    their masks). -/
structure Params where
  w1 : Fin 4096 → Fin 196 → EReal
  b1 : Fin 196 → EReal
  w2 : Fin 196 → Fin 10 → EReal
  b2 : Fin 10 → EReal
  w3 : Fin 10 → Fin 1024 → EReal
  b3 : Fin 1024 → EReal
  w4 : Fin 1024 → Fin 32 → EReal
  b4 : Fin 32 → EReal
  wd1 : Fin 32 → Fin 1024 → EReal
  bd1 : Fin 1024 → EReal
  wd2 : Fin 1024 → Fin 2048 → EReal
  bd2 : Fin 2048 → EReal
  wd3 : Fin 2048 → Fin 4096 → EReal
  bd3 : Fin 4096 → EReal

/-- The encoder on one row: four rectifier layers. -/
def Params.enc (P : Params) (v : Fin 4096 → EReal) : Fin 32 → EReal :=
  reluRow P.w4 P.b4 (reluRow P.w3 P.b3 (reluRow P.w2 P.b2 (reluRow P.w1 P.b1 v)))

/-- The decoder on one latent row: two rectifier layers and a sigmoid layer. -/
def Params.dec (P : Params) (z : Fin 32 → EReal) : Fin 4096 → EReal :=
  logisticRow P.wd3 P.bd3 (reluRow P.wd2 P.bd2 (reluRow P.wd1 P.bd1 z))

/-- A matrix of extended reals. -/
abbrev Mat (A B : ℕ) : Type := (⟨2, ![A, B]⟩ : Shape).Idx → EReal
/-- A vector of extended reals. -/
abbrev Vct (N : ℕ) : Type := (⟨1, ![N]⟩ : Shape).Idx → EReal

/-- The layers' parameters from the sixteen parameter arrays: the first two weight matrices are W · C entry by
    entry, the others as given. -/
def paramsOf (C1 W1 : Mat 4096 196) (b1 : Vct 196) (C2 W2 : Mat 196 10) (b2 : Vct 10) (W3 : Mat 10 1024) (b3 : Vct 1024)
    (W4 : Mat 1024 32) (b4 : Vct 32) (Wd1 : Mat 32 1024) (bd1 : Vct 1024) (Wd2 : Mat 1024 2048) (bd2 : Vct 2048)
    (Wd3 : Mat 2048 4096) (bd3 : Vct 4096) : Params where
  w1 := fun k q => W1 (ix2 k q) * C1 (ix2 k q)
  b1 := vecEntries b1
  w2 := fun k q => W2 (ix2 k q) * C2 (ix2 k q)
  b2 := vecEntries b2
  w3 := entries W3
  b3 := vecEntries b3
  w4 := entries W4
  b4 := vecEntries b4
  wd1 := entries Wd1
  bd1 := vecEntries bd1
  wd2 := entries Wd2
  bd2 := vecEntries bd2
  wd3 := entries Wd3
  bd3 := vecEntries bd3

/-- The latent array of a batch: row p is the encoder of row p. -/
def latent (P : Params) (x : Mat 8192 4096) : Mat 8192 32 := fun i => P.enc (entries x (i 0)) (i 1)

/-- The network's result on a batch: row p is the decoder of the encoder of row p. -/
def output (P : Params) (x : Mat 8192 4096) : Mat 8192 4096 := fun i => P.dec (P.enc (entries x (i 0))) (i 1)

/-- The result is the decoder applied to the latent array's rows. -/
theorem output_eq_dec_latent (P : Params) (x : Mat 8192 4096) (p : Fin 8192) (q : Fin 4096) :
    output P x (ix2 p q) = P.dec (entries (latent P x) p) q := rfl

end Cert.Autoencoder

end
-- ==== Proof.KernelBlocks.lean ====
/-
  What one grid point of each kernel computes, entry by entry. The encoder body's stored value is four
  rectifier layers applied to its 256-row block of the input, the decoder body's two rectifier layers and a sigmoid
  layer applied to its 256-row block of the latent array; each layer reads a row of its operand only, so entry
  (r, q) of the stored value is the row function of row r of the block, at column q. Stated over arbitrary loaded
  blocks, with the layers' parameters named by hypotheses, so that the same statements serve every grid point.
-/
import proofs.«146191_j72189810311776_2_alg».proof.Proof.Gen.KernelIdeal.Skeleton
import proofs.«146191_j72189810311776_2_alg».proof.Proof.Network

noncomputable section

namespace Cert.KernelIdeal.Blocks

open Cert.KernelIdeal Cert.KernelIdeal.Gen Idealize.ShloMosaic Idealize.ShloMosaic.ValueIdx
open Idealize.ShloMosaic.DenseRows Cert.Autoencoder

/-- The encoder body. Its two payloads compose to four kernel-spelt rectifier layers (the fourth layer's bias and
    rectifier are the second payload); peeled from the outside in, they are the encoder of row `r` of the block. -/
theorem enc_payload (x0 : FVec Ideal S256x4096 .f32) (x1 : FVec Ideal S4096x196 .bf16) (x2 : FVec Ideal S1x196 .f32)
    (x3 : FVec Ideal S196x10 .bf16) (x4 : FVec Ideal S1x10 .f32) (x5 : FVec Ideal S10x1024 .bf16)
    (x6 : FVec Ideal S1x1024 .f32) (x7 : FVec Ideal S1024x32 .bf16) (x8 : FVec Ideal S1x32 .f32)
    (P : Params) (v : Fin 4096 → EReal) (r : Fin 256) (q : Fin 32)
    (h1 : entries x1 = P.w1) (h2 : rowEntries x2 = P.b1) (h3 : entries x3 = P.w2) (h4 : rowEntries x4 = P.b2)
    (h5 : entries x5 = P.w3) (h6 : rowEntries x6 = P.b3) (h7 : entries x7 = P.w4) (h8 : rowEntries x8 = P.b4)
    (h0 : entries x0 r = v) :
    k0_pay1 (F := Ideal) (k0_pay2 (F := Ideal) x0 x1 x2 x3 x4 x5 x6 x7) x8 (ix2 r q) = P.enc v q := by
  show kernelRelu dot_S256x1024_S1024x32_S256x32_1_0_0_1_n_n
      (kernelRelu dot_S256x10_S10x1024_S256x1024_1_0_0_1_n_n
        (kernelRelu dot_S256x196_S196x10_S256x10_1_0_0_1_n_n
          (kernelRelu dot_S256x4096_S4096x196_S256x196_1_0_0_1_n_n x0 bitsLt_bf16_f32
            x1 shapeCasts_S4096x196_S4096x196 x2 shapeCasts_S1x196_S1x196 broadcasts_S1x196_S256x196)
          bitsLt_bf16_f32 x3 shapeCasts_S196x10_S196x10 x4 shapeCasts_S1x10_S1x10 broadcasts_S1x10_S256x10)
        bitsLt_bf16_f32 x5 shapeCasts_S10x1024_S10x1024 x6 shapeCasts_S1x1024_S1x1024 broadcasts_S1x1024_S256x1024)
      bitsLt_bf16_f32 x7 shapeCasts_S1024x32_S1024x32 x8 shapeCasts_S1x32_S1x32 broadcasts_S1x32_S256x32 (ix2 r q) = _
  rw [kernelRelu_apply dot_S256x1024_S1024x32_S256x32_1_0_0_1_n_n rfl,
    kernelRelu_row dot_S256x10_S10x1024_S256x1024_1_0_0_1_n_n rfl,
    kernelRelu_row dot_S256x196_S196x10_S256x10_1_0_0_1_n_n rfl,
    kernelRelu_row dot_S256x4096_S4096x196_S256x196_1_0_0_1_n_n rfl,
    h1, h2, h3, h4, h5, h6, h7, h8, h0]
  rfl

/-- The decoder body. Its payload is two kernel-spelt rectifier layers and a sigmoid layer on the block of the
    latent array (read through an identity reshape); peeled from the outside in, it is the decoder of row `r`. -/
theorem dec_payload (z0 : FVec Ideal S256x32 .f32) (x1 : FVec Ideal S32x1024 .bf16) (x2 : FVec Ideal S1x1024 .f32)
    (x3 : FVec Ideal S1024x2048 .bf16) (x4 : FVec Ideal S1x2048 .f32) (x5 : FVec Ideal S2048x4096 .bf16)
    (x6 : FVec Ideal S1x4096 .f32)
    (P : Params) (v : Fin 32 → EReal) (r : Fin 256) (q : Fin 4096)
    (h1 : entries x1 = P.wd1) (h2 : rowEntries x2 = P.bd1) (h3 : entries x3 = P.wd2) (h4 : rowEntries x4 = P.bd2)
    (h5 : entries x5 = P.wd3) (h6 : rowEntries x6 = P.bd3) (h0 : entries z0 r = v) :
    k1_pay1 (F := Ideal) z0 x1 x2 x3 x4 x5 x6 (ix2 r q) = P.dec v q := by
  show kernelLogistic dot_S256x2048_S2048x4096_S256x4096_1_0_0_1_n_n
      (kernelRelu dot_S256x1024_S1024x2048_S256x2048_1_0_0_1_n_n
        (kernelRelu dot_S256x32_S32x1024_S256x1024_1_0_0_1_n_n (shapeCast S256x32 z0 shapeCasts_S256x32_S256x32) bitsLt_bf16_f32
          x1 shapeCasts_S32x1024_S32x1024 x2 shapeCasts_S1x1024_S1x1024 broadcasts_S1x1024_S256x1024)
        bitsLt_bf16_f32 x3 shapeCasts_S1024x2048_S1024x2048 x4 shapeCasts_S1x2048_S1x2048 broadcasts_S1x2048_S256x2048)
      bitsLt_bf16_f32 x5 shapeCasts_S2048x4096_S2048x4096 x6 shapeCasts_S1x4096_S1x4096 broadcasts_S1x4096_S256x4096 (ix2 r q) = _
  rw [kernelLogistic_apply dot_S256x2048_S2048x4096_S256x4096_1_0_0_1_n_n rfl,
    kernelRelu_row dot_S256x1024_S1024x2048_S256x2048_1_0_0_1_n_n rfl,
    kernelRelu_row dot_S256x32_S32x1024_S256x1024_1_0_0_1_n_n rfl,
    shapeCast_self, h1, h2, h3, h4, h5, h6, h0]
  rfl

end Cert.KernelIdeal.Blocks

end
-- ==== Proof.KernelValue.lean ====
/-
  What the two kernels leave in their result arrays. The encoder's grid point t reads rows 256·t … 256·t + 255 of the
  input and the whole of each weight and bias array (the masked and narrowed weights and the one-row biases the host
  operations before it wrote), and writes rows 256·t … 256·t + 255 of the latent array: the encoder of each row. Its 32
  points cover the 8192 rows, so the latent array ends as the encoder of every row of the input. The decoder's grid
  point t reads the same rows of that latent array and writes the same rows of the result: the decoder of each
  latent row; its 32 points cover the result. So the program's result array is, row by row, the decoder of the encoder
  of the input's row.
-/
import proofs.«146191_j72189810311776_2_alg».proof.Proof.Gen.KernelIdeal.Frame
import proofs.«146191_j72189810311776_2_alg».proof.Proof.KernelBlocks
import Idealize.ShloMosaic.Lib.StableHlo.Run
import Idealize.ShloMosaic.Lib.Pipeline.Value
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.SL.Sem
open Idealize.ShloMosaic.StableHlo Idealize.ShloMosaic.ValueIdx Idealize.ShloMosaic.DenseRows Cert.Autoencoder
open Idealize.ShloMosaic.Pipeline (Dat Cfg Window)

variable (m : (ℓ : Loc nD τ sig) → Buf (Elt Ideal) ℓ) (ρ : Dev nD → PrngReg)

/-! ## The arrays as launched on core `c`, at their array types -/

abbrev aX (c : Dev nD) : FVec Ideal S8192x4096 .f32 := m ((c : Thread nD τ).loc main_arg0)
abbrev aC1 (c : Dev nD) : FVec Ideal S4096x196 .f32 := m ((c : Thread nD τ).loc main_arg1)
abbrev aW1 (c : Dev nD) : FVec Ideal S4096x196 .f32 := m ((c : Thread nD τ).loc main_arg2)
abbrev aB1 (c : Dev nD) : FVec Ideal S196 .f32 := m ((c : Thread nD τ).loc main_arg3)
abbrev aC2 (c : Dev nD) : FVec Ideal S196x10 .f32 := m ((c : Thread nD τ).loc main_arg4)
abbrev aW2 (c : Dev nD) : FVec Ideal S196x10 .f32 := m ((c : Thread nD τ).loc main_arg5)
abbrev aB2 (c : Dev nD) : FVec Ideal S10 .f32 := m ((c : Thread nD τ).loc main_arg6)
abbrev aW3 (c : Dev nD) : FVec Ideal S10x1024 .f32 := m ((c : Thread nD τ).loc main_arg7)
abbrev aB3 (c : Dev nD) : FVec Ideal S1024 .f32 := m ((c : Thread nD τ).loc main_arg8)
abbrev aW4 (c : Dev nD) : FVec Ideal S1024x32 .f32 := m ((c : Thread nD τ).loc main_arg9)
abbrev aB4 (c : Dev nD) : FVec Ideal S32 .f32 := m ((c : Thread nD τ).loc main_arg10)
abbrev aWd1 (c : Dev nD) : FVec Ideal S32x1024 .f32 := m ((c : Thread nD τ).loc main_arg11)
abbrev aBd1 (c : Dev nD) : FVec Ideal S1024 .f32 := m ((c : Thread nD τ).loc main_arg12)
abbrev aWd2 (c : Dev nD) : FVec Ideal S1024x2048 .f32 := m ((c : Thread nD τ).loc main_arg13)
abbrev aBd2 (c : Dev nD) : FVec Ideal S2048 .f32 := m ((c : Thread nD τ).loc main_arg14)
abbrev aWd3 (c : Dev nD) : FVec Ideal S2048x4096 .f32 := m ((c : Thread nD τ).loc main_arg15)
abbrev aBd3 (c : Dev nD) : FVec Ideal S4096 .f32 := m ((c : Thread nD τ).loc main_arg16)

/-- The layers' parameters, from the parameter arrays as launched on core `c`. -/
def params (c : Dev nD) : Params :=
  paramsOf (aC1 m c) (aW1 m c) (aB1 m c) (aC2 m c) (aW2 m c) (aB2 m c) (aW3 m c) (aB3 m c) (aW4 m c) (aB4 m c)
    (aWd1 m c) (aBd1 m c) (aWd2 m c) (aBd2 m c) (aWd3 m c) (aBd3 m c)

theorem hz : (![0, 0] : Fin 2 → Nat) = fun _ => 0 := funext fun a => by fin_cases a <;> rfl

/-- Row `r` of the 256-row block of grid point `t` is row `256·t + r` of the array. -/
def rowAt (t r : ℕ) (ht : t < 32) (hr : r < 256) : Fin 8192 := ⟨t * 256 + r, by omega⟩

/-! ## What the encoder finds: the arrays the host operations before it wrote, by coordinates -/

theorem entry_x (c : Dev nD) : @Eq (FVec Ideal S8192x4096 .f32) (V1 m ρ c main_arg0) (aX m c) := by
  show StableHlo.after hostOps0 (W0 m ρ c) (Proc.devRef .tc main_arg0) = _
  after_results

theorem entry_w1 (c : Dev nD) : entries (V1 m ρ c main_call0_v1 : FVec Ideal S4096x196 .bf16) = (params m c).w1 := by
  have e : @Eq (FVec Ideal S4096x196 .bf16) (V1 m ρ c main_call0_v1) (truncf .bf16 (mulf (aW1 m c) (aC1 m c)) bitsLt_bf16_f32) := by
    show StableHlo.after hostOps0 (W0 m ρ c) (Proc.devRef .tc main_call0_v1) = _
    after_results; rfl
  rw [e]; rfl

theorem entry_b1 (c : Dev nD) : rowEntries (V1 m ρ c main_call0_v9 : FVec Ideal S1x196 .f32) = (params m c).b1 := by
  have e : @Eq (FVec Ideal S1x196 .f32) (V1 m ρ c main_call0_v9) (shapeCast S1x196 (aB1 m c) shapeCasts_S196_S1x196) := by
    show StableHlo.after hostOps0 (W0 m ρ c) (Proc.devRef .tc main_call0_v9) = _
    after_results; rfl
  rw [e]; exact funext fun q => shapeCast_a_1a_apply _ _ _ q

theorem entry_w2 (c : Dev nD) : entries (V1 m ρ c main_call0_v3 : FVec Ideal S196x10 .bf16) = (params m c).w2 := by
  have e : @Eq (FVec Ideal S196x10 .bf16) (V1 m ρ c main_call0_v3) (truncf .bf16 (mulf (aW2 m c) (aC2 m c)) bitsLt_bf16_f32) := by
    show StableHlo.after hostOps0 (W0 m ρ c) (Proc.devRef .tc main_call0_v3) = _
    after_results; rfl
  rw [e]; rfl

theorem entry_b2 (c : Dev nD) : rowEntries (V1 m ρ c main_call0_v10 : FVec Ideal S1x10 .f32) = (params m c).b2 := by
  have e : @Eq (FVec Ideal S1x10 .f32) (V1 m ρ c main_call0_v10) (shapeCast S1x10 (aB2 m c) shapeCasts_S10_S1x10) := by
    show StableHlo.after hostOps0 (W0 m ρ c) (Proc.devRef .tc main_call0_v10) = _
    after_results; rfl
  rw [e]; exact funext fun q => shapeCast_a_1a_apply _ _ _ q

theorem entry_w3 (c : Dev nD) : entries (V1 m ρ c main_call0_v4 : FVec Ideal S10x1024 .bf16) = (params m c).w3 := by
  have e : @Eq (FVec Ideal S10x1024 .bf16) (V1 m ρ c main_call0_v4) (truncf .bf16 (aW3 m c) bitsLt_bf16_f32) := by
    show StableHlo.after hostOps0 (W0 m ρ c) (Proc.devRef .tc main_call0_v4) = _
    after_results; rfl
  rw [e]; rfl

theorem entry_b3 (c : Dev nD) : rowEntries (V1 m ρ c main_call0_v11 : FVec Ideal S1x1024 .f32) = (params m c).b3 := by
  have e : @Eq (FVec Ideal S1x1024 .f32) (V1 m ρ c main_call0_v11) (shapeCast S1x1024 (aB3 m c) shapeCasts_S1024_S1x1024) := by
    show StableHlo.after hostOps0 (W0 m ρ c) (Proc.devRef .tc main_call0_v11) = _
    after_results; rfl
  rw [e]; exact funext fun q => shapeCast_a_1a_apply _ _ _ q

theorem entry_w4 (c : Dev nD) : entries (V1 m ρ c main_call0_v5 : FVec Ideal S1024x32 .bf16) = (params m c).w4 := by
  have e : @Eq (FVec Ideal S1024x32 .bf16) (V1 m ρ c main_call0_v5) (truncf .bf16 (aW4 m c) bitsLt_bf16_f32) := by
    show StableHlo.after hostOps0 (W0 m ρ c) (Proc.devRef .tc main_call0_v5) = _
    after_results; rfl
  rw [e]; rfl

theorem entry_b4 (c : Dev nD) : rowEntries (V1 m ρ c main_call0_v12 : FVec Ideal S1x32 .f32) = (params m c).b4 := by
  have e : @Eq (FVec Ideal S1x32 .f32) (V1 m ρ c main_call0_v12) (shapeCast S1x32 (aB4 m c) shapeCasts_S32_S1x32) := by
    show StableHlo.after hostOps0 (W0 m ρ c) (Proc.devRef .tc main_call0_v12) = _
    after_results; rfl
  rw [e]; exact funext fun q => shapeCast_a_1a_apply _ _ _ q

/-! ## The encoder's blocks -/

/-- A grid point of either kernel is one of 32. -/
theorem tlt0 (t : Fin cfg0.N) : t.val < 32 := by have := t.isLt; have hN : cfg0.N = 32 := N_0; omega
theorem tlt1 (t : Fin cfg1.N) : t.val < 32 := by have := t.isLt; have hN : cfg1.N = 32 := N_1; omega

/-- The encoder's index maps over its grid: the input and the latent array move by row blocks (block `t` at point
    `t`), every weight and bias window stays on its one block. -/
theorem idx0 : ∀ t : Fin cfg0.N,
    (win0_0.index t (0 : Fin 2) = t.val ∧ win0_0.index t (1 : Fin 2) = 0)
    ∧ (win0_9.index t (0 : Fin 2) = t.val ∧ win0_9.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- Row `r` of the input block at point `t` is row `256·t + r` of the input. -/
theorem blk0_0 (c : Dev nD) (t : Fin cfg0.N) (r : Fin 256) :
    entries (iblk0 (V1 m ρ) c 0 t : FVec Ideal S256x4096 .f32) r = entries (aX m c) (rowAt t.val r.val (tlt0 t) r.isLt) := by
  rw [← entry_x m ρ c]
  funext k
  obtain ⟨⟨h0, h1⟩, -⟩ := idx0 t
  show V1 m ρ c main_arg0 (((cfg0.win 0).blk t).view.emb (ix2 r k)) = V1 m ρ c main_arg0 (ix2 (rowAt t.val r.val (tlt0 t) r.isLt) k)
  refine congrArg _ (funext fun a => Fin.ext ?_)
  match a with
  | ⟨0, _⟩ => show win0_0.index t (0 : Fin 2) * 256 + 1 * r.val = t.val * 256 + r.val; omega
  | ⟨1, _⟩ => show win0_0.index t (1 : Fin 2) * 4096 + 1 * k.val = k.val; omega

theorem blk0_1 (c : Dev nD) (t : Fin cfg0.N) : entries (iblk0 (V1 m ρ) c 1 t : FVec Ideal S4096x196 .bf16) = (params m c).w1 := by
  rw [← entry_w1 m ρ c]
  funext k q
  obtain ⟨-, -, ⟨h0, h1⟩, -⟩ := idx0 t
  show V1 m ρ c main_call0_v1 (((cfg0.win 1).blk t).view.emb (ix2 k q)) = V1 m ρ c main_call0_v1 (ix2 k q)
  refine congrArg _ (funext fun a => Fin.ext ?_)
  match a with
  | ⟨0, _⟩ => show win0_1.index t (0 : Fin 2) * 4096 + 1 * k.val = k.val; omega
  | ⟨1, _⟩ => show win0_1.index t (1 : Fin 2) * 196 + 1 * q.val = q.val; omega

theorem blk0_2 (c : Dev nD) (t : Fin cfg0.N) : rowEntries (iblk0 (V1 m ρ) c 2 t : FVec Ideal S1x196 .f32) = (params m c).b1 := by
  rw [← entry_b1 m ρ c]
  funext q
  obtain ⟨-, -, -, ⟨h0, h1⟩, -⟩ := idx0 t
  show V1 m ρ c main_call0_v9 (((cfg0.win 2).blk t).view.emb (ix2 (0 : Fin 1) q)) = V1 m ρ c main_call0_v9 (ix2 (0 : Fin 1) q)
  refine congrArg _ (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 196 + 1 * q.val = q.val; omega

theorem blk0_3 (c : Dev nD) (t : Fin cfg0.N) : entries (iblk0 (V1 m ρ) c 3 t : FVec Ideal S196x10 .bf16) = (params m c).w2 := by
  rw [← entry_w2 m ρ c]
  funext k q
  obtain ⟨-, -, -, -, ⟨h0, h1⟩, -⟩ := idx0 t
  show V1 m ρ c main_call0_v3 (((cfg0.win 3).blk t).view.emb (ix2 k q)) = V1 m ρ c main_call0_v3 (ix2 k q)
  refine congrArg _ (funext fun a => Fin.ext ?_)
  match a with
  | ⟨0, _⟩ => show win0_3.index t (0 : Fin 2) * 196 + 1 * k.val = k.val; omega
  | ⟨1, _⟩ => show win0_3.index t (1 : Fin 2) * 10 + 1 * q.val = q.val; omega

theorem blk0_4 (c : Dev nD) (t : Fin cfg0.N) : rowEntries (iblk0 (V1 m ρ) c 4 t : FVec Ideal S1x10 .f32) = (params m c).b2 := by
  rw [← entry_b2 m ρ c]
  funext q
  obtain ⟨-, -, -, -, -, ⟨h0, h1⟩, -⟩ := idx0 t
  show V1 m ρ c main_call0_v10 (((cfg0.win 4).blk t).view.emb (ix2 (0 : Fin 1) q)) = V1 m ρ c main_call0_v10 (ix2 (0 : Fin 1) q)
  refine congrArg _ (funext fun a => Fin.ext ?_)
  match a with
  | ⟨0, _⟩ => show win0_4.index t (0 : Fin 2) * 1 + 1 * (0 : Fin 1).val = (0 : Fin 1).val; omega
  | ⟨1, _⟩ => show win0_4.index t (1 : Fin 2) * 10 + 1 * q.val = q.val; omega

theorem blk0_5 (c : Dev nD) (t : Fin cfg0.N) : entries (iblk0 (V1 m ρ) c 5 t : FVec Ideal S10x1024 .bf16) = (params m c).w3 := by
  rw [← entry_w3 m ρ c]
  funext k q
  obtain ⟨-, -, -, -, -, -, ⟨h0, h1⟩, -⟩ := idx0 t
  show V1 m ρ c main_call0_v4 (((cfg0.win 5).blk t).view.emb (ix2 k q)) = V1 m ρ c main_call0_v4 (ix2 k q)
  refine congrArg _ (funext fun a => Fin.ext ?_)
  match a with
  | ⟨0, _⟩ => show win0_5.index t (0 : Fin 2) * 10 + 1 * k.val = k.val; omega
  | ⟨1, _⟩ => show win0_5.index t (1 : Fin 2) * 1024 + 1 * q.val = q.val; omega

theorem blk0_6 (c : Dev nD) (t : Fin cfg0.N) : rowEntries (iblk0 (V1 m ρ) c 6 t : FVec Ideal S1x1024 .f32) = (params m c).b3 := by
  rw [← entry_b3 m ρ c]
  funext q
  obtain ⟨-, -, -, -, -, -, -, ⟨h0, h1⟩, -⟩ := idx0 t
  show V1 m ρ c main_call0_v11 (((cfg0.win 6).blk t).view.emb (ix2 (0 : Fin 1) q)) = V1 m ρ c main_call0_v11 (ix2 (0 : Fin 1) q)
  refine congrArg _ (funext fun a => Fin.ext ?_)
  match a with
  | ⟨0, _⟩ => show win0_6.index t (0 : Fin 2) * 1 + 1 * (0 : Fin 1).val = (0 : Fin 1).val; omega
  | ⟨1, _⟩ => show win0_6.index t (1 : Fin 2) * 1024 + 1 * q.val = q.val; omega

theorem blk0_7 (c : Dev nD) (t : Fin cfg0.N) : entries (iblk0 (V1 m ρ) c 7 t : FVec Ideal S1024x32 .bf16) = (params m c).w4 := by
  rw [← entry_w4 m ρ c]
  funext k q
  obtain ⟨-, -, -, -, -, -, -, -, ⟨h0, h1⟩, -⟩ := idx0 t
  show V1 m ρ c main_call0_v5 (((cfg0.win 7).blk t).view.emb (ix2 k q)) = V1 m ρ c main_call0_v5 (ix2 k q)
  refine congrArg _ (funext fun a => Fin.ext ?_)
  match a with
  | ⟨0, _⟩ => show win0_7.index t (0 : Fin 2) * 1024 + 1 * k.val = k.val; omega
  | ⟨1, _⟩ => show win0_7.index t (1 : Fin 2) * 32 + 1 * q.val = q.val; omega

theorem blk0_8 (c : Dev nD) (t : Fin cfg0.N) : rowEntries (iblk0 (V1 m ρ) c 8 t : FVec Ideal S1x32 .f32) = (params m c).b4 := by
  rw [← entry_b4 m ρ c]
  funext q
  obtain ⟨-, -, -, -, -, -, -, -, -, h0, h1⟩ := idx0 t
  show V1 m ρ c main_call0_v12 (((cfg0.win 8).blk t).view.emb (ix2 (0 : Fin 1) q)) = V1 m ρ c main_call0_v12 (ix2 (0 : Fin 1) q)
  refine congrArg _ (funext fun a => Fin.ext ?_)
  match a with
  | ⟨0, _⟩ => show win0_8.index t (0 : Fin 2) * 1 + 1 * (0 : Fin 1).val = (0 : Fin 1).val; omega
  | ⟨1, _⟩ => show win0_8.index t (1 : Fin 2) * 32 + 1 * q.val = q.val; omega

/-- Entry `(r, q)` of the latent block at point `t` sits at row `256·t + r`, column `q` of the latent array. -/
theorem emb0_9 (t : Fin cfg0.N) (r : Fin 256) (q : Fin 32) :
    ((cfg0.win 9).blk t).view.emb (ix2 r q) = (ix2 (rowAt t.val r.val (tlt0 t) r.isLt) q : S8192x32.Idx) := by
  obtain ⟨-, ⟨h0, h1⟩, -⟩ := idx0 t
  refine funext fun a => Fin.ext ?_
  match a with
  | ⟨0, _⟩ => show win0_9.index t (0 : Fin 2) * 256 + 1 * r.val = t.val * 256 + r.val; omega
  | ⟨1, _⟩ => show win0_9.index t (1 : Fin 2) * 32 + 1 * q.val = q.val; omega

/-! ## The latent array -/

/-- What the encoder's point `t` writes back is block `t` of the latent array of the launched input: each row of
    the block is the encoder of the input's row it was computed from. -/
theorem flushed0 (c : Dev nD) (t : Fin cfg0.N) :
    (dat0 (V1 m ρ) c).flushed 9 t = ((cfg0.win 9).blk t).view.read (Elt Ideal) (latent (params m c) (aX m c)) := by
  show (cfg0.win 9).cut (grid0.coords t) ((dat0 (V1 m ρ) c).after 9 t) = _
  rw [after0_9]
  unfold out0_9
  rw [View.canon_unit_zero hz]
  simp only [View.ld_unit_zero (S := S256x4096) hz, View.ld_unit_zero (S := S4096x196) hz, View.ld_unit_zero (S := S1x196) hz,
    View.ld_unit_zero (S := S196x10) hz, View.ld_unit_zero (S := S1x10) hz, View.ld_unit_zero (S := S10x1024) hz,
    View.ld_unit_zero (S := S1x1024) hz, View.ld_unit_zero (S := S1024x32) hz, View.ld_unit_zero (S := S1x32) hz]
  funext j
  obtain ⟨r, q, rfl⟩ : ∃ (r : Fin 256) (q : Fin 32), j = ix2 r q := ⟨j 0, j 1, eq_ix2 j⟩
  show k0_pay1 (F := Ideal) (k0_pay2 (F := Ideal) (iblk0 (V1 m ρ) c 0 t) (iblk0 (V1 m ρ) c 1 t) (iblk0 (V1 m ρ) c 2 t)
        (iblk0 (V1 m ρ) c 3 t) (iblk0 (V1 m ρ) c 4 t) (iblk0 (V1 m ρ) c 5 t) (iblk0 (V1 m ρ) c 6 t) (iblk0 (V1 m ρ) c 7 t))
      (iblk0 (V1 m ρ) c 8 t) (ix2 r q)
    = latent (params m c) (aX m c) (((cfg0.win 9).blk t).view.emb (ix2 r q))
  rw [emb0_9 t r q]
  exact Blocks.enc_payload _ _ _ _ _ _ _ _ _ (params m c) _ r q (blk0_1 m ρ c t) (blk0_2 m ρ c t) (blk0_3 m ρ c t)
    (blk0_4 m ρ c t) (blk0_5 m ρ c t) (blk0_6 m ρ c t) (blk0_7 m ρ c t) (blk0_8 m ρ c t) (blk0_0 m ρ c t r)

/-- An index of the latent array is in point `t`'s block iff each coordinate is in the block's range. -/
theorem mem_blk0 (t : Fin cfg0.N) (i : S8192x32.Idx) :
    i ∈ ((cfg0.win 9).blk t).view.set ↔ ∀ a : Fin 2, win0_9.index t a * S256x32.size a ≤ (i a).val ∧ (i a).val < win0_9.index t a * S256x32.size a + S256x32.size a := by
  show i ∈ ((View.whole main_call0_v16).slice (win0_9.rect t)).set ↔ _
  rw [View.set_slice_whole, Rect.mem_set_unit]
  exact Iff.rfl

/-- Row `p` of the latent array is written by the point `p / 256`: the 32 blocks cover the array. -/
theorem cover0 (i : S8192x32.Idx) : ∃ t : Fin cfg0.N, (cfg0.win 9).flush t = true ∧ i ∈ ((cfg0.win 9).blk t).view.set := by
  have hi0 : (i 0).val < 8192 := (i 0).isLt
  have hi1 : (i 1).val < 32 := (i 1).isLt
  have hN : cfg0.N = 32 := N_0
  have ht : (i 0).val / 256 < cfg0.N := by omega
  obtain ⟨-, ⟨h0, h1⟩, -⟩ := idx0 ⟨(i 0).val / 256, ht⟩
  have h0' : win0_9.index ⟨(i 0).val / 256, ht⟩ (0 : Fin 2) = (i 0).val / 256 := h0
  refine ⟨⟨(i 0).val / 256, ht⟩, flush0_9 _, ?_⟩
  rw [mem_blk0]
  intro a
  match a with
  | ⟨0, _⟩ =>
    show win0_9.index ⟨(i 0).val / 256, ht⟩ (0 : Fin 2) * 256 ≤ (i 0).val
      ∧ (i 0).val < win0_9.index ⟨(i 0).val / 256, ht⟩ (0 : Fin 2) * 256 + 256
    omega
  | ⟨1, _⟩ =>
    show win0_9.index ⟨(i 0).val / 256, ht⟩ (1 : Fin 2) * 32 ≤ (i 1).val
      ∧ (i 1).val < win0_9.index ⟨(i 0).val / 256, ht⟩ (1 : Fin 2) * 32 + 32
    omega

/-- After the encoder's grid the latent array is the encoder of every row of the launched input. -/
theorem final0 (c : Dev nD) : (dat0 (V1 m ρ) c).arrAt 9 cfg0.N = latent (params m c) (aX m c) :=
  (dat0 (V1 m ρ) c).arrAt_eq_of_cover 9 _ (fun t _ => flushed0 m ρ c t) cover0

/-! ## What the decoder finds -/

/-- The decoder's first operand is the latent array the encoder's grid left. -/
theorem entry_z (c : Dev nD) : @Eq (FVec Ideal S8192x32 .f32) (V2 m ρ c main_call0_v16) (latent (params m c) (aX m c)) :=
  (W2_arr m ρ c 9).trans (final0 m ρ c)

theorem entry_wd1 (c : Dev nD) : entries (V2 m ρ c main_call0_v6 : FVec Ideal S32x1024 .bf16) = (params m c).wd1 := by
  have e : @Eq (FVec Ideal S32x1024 .bf16) (V2 m ρ c main_call0_v6) (truncf .bf16 (aWd1 m c) bitsLt_bf16_f32) := by
    refine (W2_of_ne m ρ c main_call0_v6 (by decide)).trans ?_
    show StableHlo.after hostOps0 (W0 m ρ c) (Proc.devRef .tc main_call0_v6) = _
    after_results; rfl
  rw [e]; rfl

theorem entry_bd1 (c : Dev nD) : rowEntries (V2 m ρ c main_call0_v13 : FVec Ideal S1x1024 .f32) = (params m c).bd1 := by
  have e : @Eq (FVec Ideal S1x1024 .f32) (V2 m ρ c main_call0_v13) (shapeCast S1x1024 (aBd1 m c) shapeCasts_S1024_S1x1024) := by
    refine (W2_of_ne m ρ c main_call0_v13 (by decide)).trans ?_
    show StableHlo.after hostOps0 (W0 m ρ c) (Proc.devRef .tc main_call0_v13) = _
    after_results; rfl
  rw [e]; exact funext fun q => shapeCast_a_1a_apply _ _ _ q

theorem entry_wd2 (c : Dev nD) : entries (V2 m ρ c main_call0_v7 : FVec Ideal S1024x2048 .bf16) = (params m c).wd2 := by
  have e : @Eq (FVec Ideal S1024x2048 .bf16) (V2 m ρ c main_call0_v7) (truncf .bf16 (aWd2 m c) bitsLt_bf16_f32) := by
    refine (W2_of_ne m ρ c main_call0_v7 (by decide)).trans ?_
    show StableHlo.after hostOps0 (W0 m ρ c) (Proc.devRef .tc main_call0_v7) = _
    after_results; rfl
  rw [e]; rfl

theorem entry_bd2 (c : Dev nD) : rowEntries (V2 m ρ c main_call0_v14 : FVec Ideal S1x2048 .f32) = (params m c).bd2 := by
  have e : @Eq (FVec Ideal S1x2048 .f32) (V2 m ρ c main_call0_v14) (shapeCast S1x2048 (aBd2 m c) shapeCasts_S2048_S1x2048) := by
    refine (W2_of_ne m ρ c main_call0_v14 (by decide)).trans ?_
    show StableHlo.after hostOps0 (W0 m ρ c) (Proc.devRef .tc main_call0_v14) = _
    after_results; rfl
  rw [e]; exact funext fun q => shapeCast_a_1a_apply _ _ _ q

theorem entry_wd3 (c : Dev nD) : entries (V2 m ρ c main_call0_v8 : FVec Ideal S2048x4096 .bf16) = (params m c).wd3 := by
  have e : @Eq (FVec Ideal S2048x4096 .bf16) (V2 m ρ c main_call0_v8) (truncf .bf16 (aWd3 m c) bitsLt_bf16_f32) := by
    refine (W2_of_ne m ρ c main_call0_v8 (by decide)).trans ?_
    show StableHlo.after hostOps0 (W0 m ρ c) (Proc.devRef .tc main_call0_v8) = _
    after_results; rfl
  rw [e]; rfl

theorem entry_bd3 (c : Dev nD) : rowEntries (V2 m ρ c main_call0_v15 : FVec Ideal S1x4096 .f32) = (params m c).bd3 := by
  have e : @Eq (FVec Ideal S1x4096 .f32) (V2 m ρ c main_call0_v15) (shapeCast S1x4096 (aBd3 m c) shapeCasts_S4096_S1x4096) := by
    refine (W2_of_ne m ρ c main_call0_v15 (by decide)).trans ?_
    show StableHlo.after hostOps0 (W0 m ρ c) (Proc.devRef .tc main_call0_v15) = _
    after_results; rfl
  rw [e]; exact funext fun q => shapeCast_a_1a_apply _ _ _ q

/-! ## The decoder's blocks -/

/-- The decoder's index maps over its grid: the latent array and the result move by row blocks, every weight and bias
    window stays on its one block. -/
theorem idx1 : ∀ t : Fin cfg1.N,
    (win1_0.index t (0 : Fin 2) = t.val ∧ win1_0.index t (1 : Fin 2) = 0)
    ∧ (win1_7.index t (0 : Fin 2) = t.val ∧ win1_7.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0) :=
  (by decide +kernel : ∀ t : Fin grid1.N, _)

/-- Row `r` of the latent block at point `t` is row `256·t + r` of the latent array. -/
theorem blk1_0 (c : Dev nD) (t : Fin cfg1.N) (r : Fin 256) :
    entries (iblk1 (V2 m ρ) c 0 t : FVec Ideal S256x32 .f32) r
      = entries (latent (params m c) (aX m c)) (rowAt t.val r.val (tlt1 t) r.isLt) := by
  rw [← entry_z m ρ c]
  funext k
  obtain ⟨⟨h0, h1⟩, -⟩ := idx1 t
  show V2 m ρ c main_call0_v16 (((cfg1.win 0).blk t).view.emb (ix2 r k)) = V2 m ρ c main_call0_v16 (ix2 (rowAt t.val r.val (tlt1 t) r.isLt) k)
  refine congrArg _ (funext fun a => Fin.ext ?_)
  match a with
  | ⟨0, _⟩ => show win1_0.index t (0 : Fin 2) * 256 + 1 * r.val = t.val * 256 + r.val; omega
  | ⟨1, _⟩ => show win1_0.index t (1 : Fin 2) * 32 + 1 * k.val = k.val; omega

theorem blk1_1 (c : Dev nD) (t : Fin cfg1.N) : entries (iblk1 (V2 m ρ) c 1 t : FVec Ideal S32x1024 .bf16) = (params m c).wd1 := by
  rw [← entry_wd1 m ρ c]
  funext k q
  obtain ⟨-, -, ⟨h0, h1⟩, -⟩ := idx1 t
  show V2 m ρ c main_call0_v6 (((cfg1.win 1).blk t).view.emb (ix2 k q)) = V2 m ρ c main_call0_v6 (ix2 k q)
  refine congrArg _ (funext fun a => Fin.ext ?_)
  match a with
  | ⟨0, _⟩ => show win1_1.index t (0 : Fin 2) * 32 + 1 * k.val = k.val; omega
  | ⟨1, _⟩ => show win1_1.index t (1 : Fin 2) * 1024 + 1 * q.val = q.val; omega

theorem blk1_2 (c : Dev nD) (t : Fin cfg1.N) : rowEntries (iblk1 (V2 m ρ) c 2 t : FVec Ideal S1x1024 .f32) = (params m c).bd1 := by
  rw [← entry_bd1 m ρ c]
  funext q
  obtain ⟨-, -, -, ⟨h0, h1⟩, -⟩ := idx1 t
  show V2 m ρ c main_call0_v13 (((cfg1.win 2).blk t).view.emb (ix2 (0 : Fin 1) q)) = V2 m ρ c main_call0_v13 (ix2 (0 : Fin 1) q)
  refine congrArg _ (funext fun a => Fin.ext ?_)
  match a with
  | ⟨0, _⟩ => show win1_2.index t (0 : Fin 2) * 1 + 1 * (0 : Fin 1).val = (0 : Fin 1).val; omega
  | ⟨1, _⟩ => show win1_2.index t (1 : Fin 2) * 1024 + 1 * q.val = q.val; omega

theorem blk1_3 (c : Dev nD) (t : Fin cfg1.N) : entries (iblk1 (V2 m ρ) c 3 t : FVec Ideal S1024x2048 .bf16) = (params m c).wd2 := by
  rw [← entry_wd2 m ρ c]
  funext k q
  obtain ⟨-, -, -, -, ⟨h0, h1⟩, -⟩ := idx1 t
  show V2 m ρ c main_call0_v7 (((cfg1.win 3).blk t).view.emb (ix2 k q)) = V2 m ρ c main_call0_v7 (ix2 k q)
  refine congrArg _ (funext fun a => Fin.ext ?_)
  match a with
  | ⟨0, _⟩ => show win1_3.index t (0 : Fin 2) * 1024 + 1 * k.val = k.val; omega
  | ⟨1, _⟩ => show win1_3.index t (1 : Fin 2) * 2048 + 1 * q.val = q.val; omega

theorem blk1_4 (c : Dev nD) (t : Fin cfg1.N) : rowEntries (iblk1 (V2 m ρ) c 4 t : FVec Ideal S1x2048 .f32) = (params m c).bd2 := by
  rw [← entry_bd2 m ρ c]
  funext q
  obtain ⟨-, -, -, -, -, ⟨h0, h1⟩, -⟩ := idx1 t
  show V2 m ρ c main_call0_v14 (((cfg1.win 4).blk t).view.emb (ix2 (0 : Fin 1) q)) = V2 m ρ c main_call0_v14 (ix2 (0 : Fin 1) q)
  refine congrArg _ (funext fun a => Fin.ext ?_)
  match a with
  | ⟨0, _⟩ => show win1_4.index t (0 : Fin 2) * 1 + 1 * (0 : Fin 1).val = (0 : Fin 1).val; omega
  | ⟨1, _⟩ => show win1_4.index t (1 : Fin 2) * 2048 + 1 * q.val = q.val; omega

theorem blk1_5 (c : Dev nD) (t : Fin cfg1.N) : entries (iblk1 (V2 m ρ) c 5 t : FVec Ideal S2048x4096 .bf16) = (params m c).wd3 := by
  rw [← entry_wd3 m ρ c]
  funext k q
  obtain ⟨-, -, -, -, -, -, ⟨h0, h1⟩, -⟩ := idx1 t
  show V2 m ρ c main_call0_v8 (((cfg1.win 5).blk t).view.emb (ix2 k q)) = V2 m ρ c main_call0_v8 (ix2 k q)
  refine congrArg _ (funext fun a => Fin.ext ?_)
  match a with
  | ⟨0, _⟩ => show win1_5.index t (0 : Fin 2) * 2048 + 1 * k.val = k.val; omega
  | ⟨1, _⟩ => show win1_5.index t (1 : Fin 2) * 4096 + 1 * q.val = q.val; omega

theorem blk1_6 (c : Dev nD) (t : Fin cfg1.N) : rowEntries (iblk1 (V2 m ρ) c 6 t : FVec Ideal S1x4096 .f32) = (params m c).bd3 := by
  rw [← entry_bd3 m ρ c]
  funext q
  obtain ⟨-, -, -, -, -, -, -, h0, h1⟩ := idx1 t
  show V2 m ρ c main_call0_v15 (((cfg1.win 6).blk t).view.emb (ix2 (0 : Fin 1) q)) = V2 m ρ c main_call0_v15 (ix2 (0 : Fin 1) q)
  refine congrArg _ (funext fun a => Fin.ext ?_)
  match a with
  | ⟨0, _⟩ => show win1_6.index t (0 : Fin 2) * 1 + 1 * (0 : Fin 1).val = (0 : Fin 1).val; omega
  | ⟨1, _⟩ => show win1_6.index t (1 : Fin 2) * 4096 + 1 * q.val = q.val; omega

/-- Entry `(r, q)` of the result block at point `t` sits at row `256·t + r`, column `q` of the result. -/
theorem emb1_7 (t : Fin cfg1.N) (r : Fin 256) (q : Fin 4096) :
    ((cfg1.win 7).blk t).view.emb (ix2 r q) = (ix2 (rowAt t.val r.val (tlt1 t) r.isLt) q : S8192x4096.Idx) := by
  obtain ⟨-, ⟨h0, h1⟩, -⟩ := idx1 t
  refine funext fun a => Fin.ext ?_
  match a with
  | ⟨0, _⟩ => show win1_7.index t (0 : Fin 2) * 256 + 1 * r.val = t.val * 256 + r.val; omega
  | ⟨1, _⟩ => show win1_7.index t (1 : Fin 2) * 4096 + 1 * q.val = q.val; omega

/-! ## The result array -/

/-- What the decoder's point `t` writes back is block `t` of the network's result on the launched input: each row
    of the block is the decoder of the latent row it was computed from, which is the encoder of the input's row. -/
theorem flushed1 (c : Dev nD) (t : Fin cfg1.N) :
    (dat1 (V2 m ρ) c).flushed 7 t = ((cfg1.win 7).blk t).view.read (Elt Ideal) (output (params m c) (aX m c)) := by
  show (cfg1.win 7).cut (grid1.coords t) ((dat1 (V2 m ρ) c).after 7 t) = _
  rw [after1_7]
  unfold out1_7
  rw [View.canon_unit_zero hz]
  simp only [View.ld_unit_zero (S := S256x32) hz, View.ld_unit_zero (S := S32x1024) hz, View.ld_unit_zero (S := S1x1024) hz,
    View.ld_unit_zero (S := S1024x2048) hz, View.ld_unit_zero (S := S1x2048) hz, View.ld_unit_zero (S := S2048x4096) hz,
    View.ld_unit_zero (S := S1x4096) hz]
  funext j
  obtain ⟨r, q, rfl⟩ : ∃ (r : Fin 256) (q : Fin 4096), j = ix2 r q := ⟨j 0, j 1, eq_ix2 j⟩
  show k1_pay1 (F := Ideal) (iblk1 (V2 m ρ) c 0 t) (iblk1 (V2 m ρ) c 1 t) (iblk1 (V2 m ρ) c 2 t) (iblk1 (V2 m ρ) c 3 t)
      (iblk1 (V2 m ρ) c 4 t) (iblk1 (V2 m ρ) c 5 t) (iblk1 (V2 m ρ) c 6 t) (ix2 r q)
    = output (params m c) (aX m c) (((cfg1.win 7).blk t).view.emb (ix2 r q))
  rw [emb1_7 t r q, output_eq_dec_latent]
  exact Blocks.dec_payload _ _ _ _ _ _ _ (params m c) _ r q (blk1_1 m ρ c t) (blk1_2 m ρ c t) (blk1_3 m ρ c t)
    (blk1_4 m ρ c t) (blk1_5 m ρ c t) (blk1_6 m ρ c t) (blk1_0 m ρ c t r)

/-- An index of the result array is in point `t`'s block iff each coordinate is in the block's range. -/
theorem mem_blk1 (t : Fin cfg1.N) (i : S8192x4096.Idx) :
    i ∈ ((cfg1.win 7).blk t).view.set ↔ ∀ a : Fin 2, win1_7.index t a * S256x4096.size a ≤ (i a).val ∧ (i a).val < win1_7.index t a * S256x4096.size a + S256x4096.size a := by
  show i ∈ ((View.whole main_v0).slice (win1_7.rect t)).set ↔ _
  rw [View.set_slice_whole, Rect.mem_set_unit]
  exact Iff.rfl

/-- Row `p` of the result is written by the point `p / 256`: the 32 blocks cover the array. -/
theorem cover1 (i : S8192x4096.Idx) : ∃ t : Fin cfg1.N, (cfg1.win 7).flush t = true ∧ i ∈ ((cfg1.win 7).blk t).view.set := by
  have hi0 : (i 0).val < 8192 := (i 0).isLt
  have hi1 : (i 1).val < 4096 := (i 1).isLt
  have hN : cfg1.N = 32 := N_1
  have ht : (i 0).val / 256 < cfg1.N := by omega
  obtain ⟨-, ⟨h0, h1⟩, -⟩ := idx1 ⟨(i 0).val / 256, ht⟩
  have h0' : win1_7.index ⟨(i 0).val / 256, ht⟩ (0 : Fin 2) = (i 0).val / 256 := h0
  refine ⟨⟨(i 0).val / 256, ht⟩, flush1_7 _, ?_⟩
  rw [mem_blk1]
  intro a
  match a with
  | ⟨0, _⟩ =>
    show win1_7.index ⟨(i 0).val / 256, ht⟩ (0 : Fin 2) * 256 ≤ (i 0).val
      ∧ (i 0).val < win1_7.index ⟨(i 0).val / 256, ht⟩ (0 : Fin 2) * 256 + 256
    omega
  | ⟨1, _⟩ =>
    show win1_7.index ⟨(i 0).val / 256, ht⟩ (1 : Fin 2) * 4096 ≤ (i 1).val
      ∧ (i 1).val < win1_7.index ⟨(i 0).val / 256, ht⟩ (1 : Fin 2) * 4096 + 4096
    omega

/-- After the decoder's grid the result array is the network's result on the launched input. -/
theorem final1 (c : Dev nD) : (dat1 (V2 m ρ) c).arrAt 7 cfg1.N = output (params m c) (aX m c) :=
  (dat1 (V2 m ρ) c).arrAt_eq_of_cover 7 _ (fun t _ => flushed1 m ρ c t) cover1

/-- At the program's last boundary the result buffer holds the network's result on the launched input. -/
theorem result (c : Dev nD) :
    @Eq (FVec Ideal S8192x4096 .f32) (W3 m ρ c (Proc.devRef .tc main_v0)) (output (params m c) (aX m c)) :=
  (W3_arr m ρ c 7).trans (final1 m ρ c)

end Cert.KernelIdeal.Val

end
-- ==== Proof.Reference.lean ====
/-
  The reference program computes the autoencoder row by row. Its result array is a nest of seven host-spelt layers
  (dot_general, bias laid as a row and spread, maximum with a zero splat; the last one 1 / (1 + exp (−z))), each of
  which reads row p of its operand only: entry (p, q) of the result is the decoder of the encoder of row p of the
  input, at column q.
-/
import proofs.«146191_j72189810311776_2_alg».proof.Proof.Gen.ReferenceIdeal.Read
import proofs.«146191_j72189810311776_2_alg».proof.Proof.Network

noncomputable section

namespace Cert.ReferenceIdeal.RefValue

open Cert.ReferenceIdeal Cert.ReferenceIdeal.Gen Idealize.ShloMosaic Idealize.ShloMosaic.ValueIdx
open Idealize.ShloMosaic.DenseRows Cert.Autoencoder

/-- The reference's last stage, as a function of the sixteen parameter arrays and the input, is the network's
    result on the batch. The seven layers are peeled from the outside in, each by its row lemma; what is left on
    both sides is the same nest of layers on row p. -/
theorem result_eq (x0 : (⟨S8192x4096, .f32⟩ : BufTy).Contents (Elt Ideal)) (x1 x2 : (⟨S4096x196, .f32⟩ : BufTy).Contents (Elt Ideal))
    (x3 : (⟨S196, .f32⟩ : BufTy).Contents (Elt Ideal)) (x4 x5 : (⟨S196x10, .f32⟩ : BufTy).Contents (Elt Ideal))
    (x6 : (⟨S10, .f32⟩ : BufTy).Contents (Elt Ideal)) (x7 : (⟨S10x1024, .f32⟩ : BufTy).Contents (Elt Ideal))
    (x8 : (⟨S1024, .f32⟩ : BufTy).Contents (Elt Ideal)) (x9 : (⟨S1024x32, .f32⟩ : BufTy).Contents (Elt Ideal))
    (x10 : (⟨S32, .f32⟩ : BufTy).Contents (Elt Ideal)) (x11 : (⟨S32x1024, .f32⟩ : BufTy).Contents (Elt Ideal))
    (x12 : (⟨S1024, .f32⟩ : BufTy).Contents (Elt Ideal)) (x13 : (⟨S1024x2048, .f32⟩ : BufTy).Contents (Elt Ideal))
    (x14 : (⟨S2048, .f32⟩ : BufTy).Contents (Elt Ideal)) (x15 : (⟨S2048x4096, .f32⟩ : BufTy).Contents (Elt Ideal))
    (x16 : (⟨S4096, .f32⟩ : BufTy).Contents (Elt Ideal)) :
    Read.val_main_v41 (F := Ideal) x0 x1 x2 x3 x4 x5 x6 x7 x8 x9 x10 x11 x12 x13 x14 x15 x16
      = output (paramsOf x1 x2 x3 x4 x5 x6 x7 x8 x9 x10 x11 x12 x13 x14 x15 x16) x0 := by
  funext i
  obtain ⟨p, q, rfl⟩ : ∃ (p : Fin 8192) (q : Fin 4096), i = ix2 p q := ⟨i 0, i 1, eq_ix2 i⟩
  show hostSigmoid dot_S8192x2048_S2048x4096_S8192x4096_1_0_0_1_n_n
      (hostRelu dot_S8192x1024_S1024x2048_S8192x2048_1_0_0_1_n_n
        (hostRelu dot_S8192x32_S32x1024_S8192x1024_1_0_0_1_n_n
          (hostRelu dot_S8192x1024_S1024x32_S8192x32_1_0_0_1_n_n
            (hostRelu dot_S8192x10_S10x1024_S8192x1024_1_0_0_1_n_n
              (hostRelu dot_S8192x196_S196x10_S8192x10_1_0_0_1_n_n
                (hostRelu dot_S8192x4096_S4096x196_S8192x196_1_0_0_1_n_n x0 (mulf x2 x1) x3
                  bcast_S196_S1x196_1 bcast_S1x196_S8192x196_0_1 bcast_S_S8192x196)
                (mulf x5 x4) x6 bcast_S10_S1x10_1 bcast_S1x10_S8192x10_0_1 bcast_S_S8192x10)
              x7 x8 bcast_S1024_S1x1024_1 bcast_S1x1024_S8192x1024_0_1 bcast_S_S8192x1024)
            x9 x10 bcast_S32_S1x32_1 bcast_S1x32_S8192x32_0_1 bcast_S_S8192x32)
          x11 x12 bcast_S1024_S1x1024_1 bcast_S1x1024_S8192x1024_0_1 bcast_S_S8192x1024)
        x13 x14 bcast_S2048_S1x2048_1 bcast_S1x2048_S8192x2048_0_1 bcast_S_S8192x2048)
      x15 x16 bcast_S4096_S1x4096_1 bcast_S1x4096_S8192x4096_0_1 bcast_S_S8192x4096 (ix2 p q) = _
  rw [hostSigmoid_apply dot_S8192x2048_S2048x4096_S8192x4096_1_0_0_1_n_n rfl,
    hostRelu_row dot_S8192x1024_S1024x2048_S8192x2048_1_0_0_1_n_n rfl,
    hostRelu_row dot_S8192x32_S32x1024_S8192x1024_1_0_0_1_n_n rfl,
    hostRelu_row dot_S8192x1024_S1024x32_S8192x32_1_0_0_1_n_n rfl,
    hostRelu_row dot_S8192x10_S10x1024_S8192x1024_1_0_0_1_n_n rfl,
    hostRelu_row dot_S8192x196_S196x10_S8192x10_1_0_0_1_n_n rfl,
    hostRelu_row dot_S8192x4096_S4096x196_S8192x196_1_0_0_1_n_n rfl]
  rfl

end Cert.ReferenceIdeal.RefValue

end
-- ==== Proof.lean ====
/-
  The kernel program (host operations that mask and narrow the weights and lay the biases as rows, an encoder kernel
  over 32 blocks of 256 rows, a decoder kernel over the same blocks) and the reference (seven dense layers written
  with dot_general) compute, at the ideal values, one function of the input batch and the sixteen parameter arrays:
  row p of the result is the decoder of the encoder of row p of the input (Proof/Network.lean). No layer mixes rows,
  so the kernels' cutting of the batch into blocks of rows changes nothing; a matrix product into a zero accumulator
  is the host's product; narrowing to bf16 is the identity at the ideal values; and the kernel's logistic operation is
  the reference's 1 / (1 + exp (−z)) on every extended real. No step uses that the inputs are finite.
  Proof/KernelValue.lean reads the kernel program's result array, Proof/Reference.lean the reference's; the three
  frames are the generated ones (the reference's is its generated run with the result dropped); the idealization
  rewrote nothing, so its conjunct is trivial.
-/
import proofs.«146191_j72189810311776_2_alg».proof.Defs
import proofs.«146191_j72189810311776_2_alg».proof.Proof.Gen.Kernel
import proofs.«146191_j72189810311776_2_alg».proof.Proof.Gen.Kernel.Frame
import proofs.«146191_j72189810311776_2_alg».proof.Proof.Gen.KernelIdeal
import proofs.«146191_j72189810311776_2_alg».proof.Proof.Gen.KernelIdeal.Frame
import proofs.«146191_j72189810311776_2_alg».proof.Proof.Gen.ReferenceIdeal
import proofs.«146191_j72189810311776_2_alg».proof.Proof.Gen.ReferenceIdeal.Run
import proofs.«146191_j72189810311776_2_alg».proof.Proof.Gen.ReferenceIdeal.Read
import proofs.«146191_j72189810311776_2_alg».proof.Proof.Gen.Pre_finite_inputs
import proofs.«146191_j72189810311776_2_alg».proof.Proof.KernelRun
import proofs.«146191_j72189810311776_2_alg».proof.Proof.KernelValue
import proofs.«146191_j72189810311776_2_alg».proof.Proof.Reference

noncomputable section

namespace Cert.Proof

open Idealize.ShloMosaic Idealize.SL.Sem Cert.Autoencoder

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network's result on the launched input: the kernel program by its run read at the last
    boundary and the value of the result buffer there, the reference by its generated run and the row-by-row reading
    of its last stage; the reference's arguments are the kernel program's. -/
theorem algebraic : Cert.algebraic_KernelIdeal_ReferenceIdeal := by
  intro m ρ m' ρ' _ hagree
  refine ⟨fun c => output (Cert.KernelIdeal.Val.params m c) (Cert.KernelIdeal.Val.aX m c), ?_, ?_⟩
  · refine (θ_run Cert.KernelIdeal.defs _ _).mono (fun r h c => ?_) (Cert.KernelIdeal.RunAll.run_boundary (F := Ideal) m ρ)
    exact ⟨(h c _ (Cert.KernelIdeal.Gen.mem_uc Cert.KernelIdeal.main_v0 (by decide))).trans (Cert.KernelIdeal.Val.result m ρ c),
      (h c _ (Cert.KernelIdeal.Gen.mem_uc Cert.KernelIdeal.main_arg0 (by decide))).trans (Cert.KernelIdeal.Gen.W3_main_arg0 m ρ c),
      (h c _ (Cert.KernelIdeal.Gen.mem_uc Cert.KernelIdeal.main_arg1 (by decide))).trans (Cert.KernelIdeal.Gen.W3_main_arg1 m ρ c),
      (h c _ (Cert.KernelIdeal.Gen.mem_uc Cert.KernelIdeal.main_arg2 (by decide))).trans (Cert.KernelIdeal.Gen.W3_main_arg2 m ρ c),
      (h c _ (Cert.KernelIdeal.Gen.mem_uc Cert.KernelIdeal.main_arg3 (by decide))).trans (Cert.KernelIdeal.Gen.W3_main_arg3 m ρ c),
      (h c _ (Cert.KernelIdeal.Gen.mem_uc Cert.KernelIdeal.main_arg4 (by decide))).trans (Cert.KernelIdeal.Gen.W3_main_arg4 m ρ c),
      (h c _ (Cert.KernelIdeal.Gen.mem_uc Cert.KernelIdeal.main_arg5 (by decide))).trans (Cert.KernelIdeal.Gen.W3_main_arg5 m ρ c),
      (h c _ (Cert.KernelIdeal.Gen.mem_uc Cert.KernelIdeal.main_arg6 (by decide))).trans (Cert.KernelIdeal.Gen.W3_main_arg6 m ρ c),
      (h c _ (Cert.KernelIdeal.Gen.mem_uc Cert.KernelIdeal.main_arg7 (by decide))).trans (Cert.KernelIdeal.Gen.W3_main_arg7 m ρ c),
      (h c _ (Cert.KernelIdeal.Gen.mem_uc Cert.KernelIdeal.main_arg8 (by decide))).trans (Cert.KernelIdeal.Gen.W3_main_arg8 m ρ c),
      (h c _ (Cert.KernelIdeal.Gen.mem_uc Cert.KernelIdeal.main_arg9 (by decide))).trans (Cert.KernelIdeal.Gen.W3_main_arg9 m ρ c),
      (h c _ (Cert.KernelIdeal.Gen.mem_uc Cert.KernelIdeal.main_arg10 (by decide))).trans (Cert.KernelIdeal.Gen.W3_main_arg10 m ρ c),
      (h c _ (Cert.KernelIdeal.Gen.mem_uc Cert.KernelIdeal.main_arg11 (by decide))).trans (Cert.KernelIdeal.Gen.W3_main_arg11 m ρ c),
      (h c _ (Cert.KernelIdeal.Gen.mem_uc Cert.KernelIdeal.main_arg12 (by decide))).trans (Cert.KernelIdeal.Gen.W3_main_arg12 m ρ c),
      (h c _ (Cert.KernelIdeal.Gen.mem_uc Cert.KernelIdeal.main_arg13 (by decide))).trans (Cert.KernelIdeal.Gen.W3_main_arg13 m ρ c),
      (h c _ (Cert.KernelIdeal.Gen.mem_uc Cert.KernelIdeal.main_arg14 (by decide))).trans (Cert.KernelIdeal.Gen.W3_main_arg14 m ρ c),
      (h c _ (Cert.KernelIdeal.Gen.mem_uc Cert.KernelIdeal.main_arg15 (by decide))).trans (Cert.KernelIdeal.Gen.W3_main_arg15 m ρ c),
      (h c _ (Cert.KernelIdeal.Gen.mem_uc Cert.KernelIdeal.main_arg16 (by decide))).trans (Cert.KernelIdeal.Gen.W3_main_arg16 m ρ c)⟩
  · refine (θ_run Cert.ReferenceIdeal.defs _ _).mono (fun _ h c => ⟨?_, (h c).2⟩)
      (Cert.ReferenceIdeal.Value.run (F := Ideal) m' ρ')
    obtain ⟨e0, e1, e2, e3, e4, e5, e6, e7, e8, e9, e10, e11, e12, e13, e14, e15, e16⟩ := hagree c
    rw [(h c).1, Cert.ReferenceIdeal.Read.val_main_v41_eq, Cert.ReferenceIdeal.RefValue.result_eq,
      e0, e1, e2, e3, e4, e5, e6, e7, e8, e9, e10, e11, e12, e13, e14, e15, e16]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
